-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v59)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v59) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v93) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S2x1600000 : Shape := ⟨2, ![2, 1600000]⟩
abbrev S256x128 : Shape := ⟨2, ![256, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S100000x256 .f32) (main_arg1 : IVec S2x1600000 32) (main_arg2 : FVec F S256x128 .f32) (main_arg3 : FVec F S128 .f32) (main_arg4 : FVec F S128x64 .f32) (main_arg5 : FVec F S64 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S256x128 .f32 := Host.absf main_arg2
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg5 main_v13 main_v16
-- ==== Kernel.lean ====
abbrev S100000x256 : Shape := ⟨2, ![100000, 256]⟩
abbrev S2x1600000 : Shape := ⟨2, ![2, 1600000]⟩
abbrev S256x128 : Shape := ⟨2, ![256, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S100000x128 : Shape := ⟨2, ![100000, 128]⟩
abbrev S10000x256 : Shape := ⟨2, ![10000, 256]⟩
abbrev S10000x128 : Shape := ⟨2, ![10000, 128]⟩
abbrev S1600000x128 : Shape := ⟨2, ![1600000, 128]⟩
abbrev S1x128 : Shape := ⟨2, ![1, 128]⟩
abbrev S10000x1 : Shape := ⟨2, ![10000, 1]⟩
abbrev S100000x64 : Shape := ⟨2, ![100000, 64]⟩
abbrev S10000x64 : Shape := ⟨2, ![10000, 64]⟩
abbrev S1600000x64 : Shape := ⟨2, ![1600000, 64]⟩
abbrev S1x64 : Shape := ⟨2, ![1, 64]⟩
abbrev S10000 : Shape := ⟨1, ![10000]⟩

abbrev nBuf : Space → Nat
  | .hbm => 79
  | .vmem => 28
  | .smem => 0
  | _ => 0

abbrev bufTy : (tb : Table) → Fin (tcTables nBuf tb) → BufTy
  | .hbm, ⟨0, _⟩ => ⟨S100000x256, .f32⟩
  | .hbm, ⟨1, _⟩ => ⟨S2x1600000, .i32⟩
  | .hbm, ⟨2, _⟩ => ⟨S256x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S_, .f32⟩
  | .hbm, ⟨11, _⟩ => ⟨S1600000, .f32⟩
  | .hbm, ⟨12, _⟩ => ⟨S_, .f32⟩
  | .hbm, ⟨13, _⟩ => ⟨S100000, .f32⟩
  | .hbm, ⟨14, _⟩ => ⟨S1600000x1, .i32⟩
  | .hbm, ⟨15, _⟩ => ⟨S100000, .f32⟩
  | .hbm, ⟨16, _⟩ => ⟨S_, .f32⟩
  | .hbm, ⟨17, _⟩ => ⟨S100000, .f32⟩
  | .hbm, ⟨18, _⟩ => ⟨S100000, .f32⟩
  | .hbm, ⟨19, _⟩ => ⟨S100000, .f32⟩
  | .hbm, ⟨20, _⟩ => ⟨S_, .i32⟩
  | .hbm, ⟨21, _⟩ => ⟨S1600000, .i32⟩
  | .hbm, ⟨22, _⟩ => ⟨S1600000, .i1⟩
  | .hbm, ⟨23, _⟩ => ⟨S_, .i32⟩
  | .hbm, ⟨24, _⟩ => ⟨S1600000, .i32⟩
  | .hbm, ⟨25, _⟩ => ⟨S1600000, .i32⟩
  | .hbm, ⟨26, _⟩ => ⟨S1600000, .i32⟩
  | .hbm, ⟨27, _⟩ => ⟨S1600000x1, .i32⟩
  | .hbm, ⟨28, _⟩ => ⟨S1600000, .f32⟩
  | .hbm, ⟨29, _⟩ => ⟨S_, .i32⟩
  | .hbm, ⟨30, _⟩ => ⟨S1600000, .i32⟩
  | .hbm, ⟨31, _⟩ => ⟨S1600000, .i1⟩
  | .hbm, ⟨32, _⟩ => ⟨S_, .i32⟩
  | .hbm, ⟨33, _⟩ => ⟨S1600000, .i32⟩
  | .hbm, ⟨34, _⟩ => ⟨S1600000, .i32⟩
  | .hbm, ⟨35, _⟩ => ⟨S1600000, .i32⟩
  | .hbm, ⟨36, _⟩ => ⟨S1600000x1, .i32⟩
  | .hbm, ⟨37, _⟩ => ⟨S1600000, .f32⟩
  | .hbm, ⟨38, _⟩ => ⟨S1600000, .f32⟩
  | .hbm, ⟨39, _⟩ => ⟨S100000, .f32⟩
  | .hbm, ⟨40, _⟩ => ⟨S100000x1, .f32⟩
  | .hbm, ⟨41, _⟩ => ⟨S100000x128, .f32⟩
  | .hbm, ⟨42, _⟩ => ⟨S_, .i32⟩
  | .hbm, ⟨43, _⟩ => ⟨S1600000, .i32⟩
  | .hbm, ⟨44, _⟩ => ⟨S1600000, .i1⟩
  | .hbm, ⟨45, _⟩ => ⟨S_, .i32⟩
  | .hbm, ⟨46, _⟩ => ⟨S1600000, .i32⟩
  | .hbm, ⟨47, _⟩ => ⟨S1600000, .i32⟩
  | .hbm, ⟨48, _⟩ => ⟨S1600000, .i32⟩
  | .hbm, ⟨49, _⟩ => ⟨S1600000x1, .i32⟩
  | .hbm, ⟨50, _⟩ => ⟨S1600000x128, .f32⟩
  | .hbm, ⟨51, _⟩ => ⟨S1600000x1, .f32⟩
  | .hbm, ⟨52, _⟩ => ⟨S1600000x128, .f32⟩
  | .hbm, ⟨53, _⟩ => ⟨S1600000x128, .f32⟩
  | .hbm, ⟨54, _⟩ => ⟨S_, .f32⟩
  | .hbm, ⟨55, _⟩ => ⟨S100000x128, .f32⟩
  | .hbm, ⟨56, _⟩ => ⟨S1600000x1, .i32⟩
  | .hbm, ⟨57, _⟩ => ⟨S100000x128, .f32⟩
  | .hbm, ⟨58, _⟩ => ⟨S1x128, .f32⟩
  | .hbm, ⟨59, _⟩ => ⟨S100000x128, .f32⟩
  | .hbm, ⟨60, _⟩ => ⟨S100000x64, .f32⟩
  | .hbm, ⟨61, _⟩ => ⟨S_, .i32⟩
  | .hbm, ⟨62, _⟩ => ⟨S1600000, .i32⟩
  | .hbm, ⟨63, _⟩ => ⟨S1600000, .i1⟩
  | .hbm, ⟨64, _⟩ => ⟨S_, .i32⟩
  | .hbm, ⟨65, _⟩ => ⟨S1600000, .i32⟩
  | .hbm, ⟨66, _⟩ => ⟨S1600000, .i32⟩
  | .hbm, ⟨67, _⟩ => ⟨S1600000, .i32⟩
  | .hbm, ⟨68, _⟩ => ⟨S1600000x1, .i32⟩
  | .hbm, ⟨69, _⟩ => ⟨S1600000x64, .f32⟩
  | .hbm, ⟨70, _⟩ => ⟨S1600000x1, .f32⟩
  | .hbm, ⟨71, _⟩ => ⟨S1600000x64, .f32⟩
  | .hbm, ⟨72, _⟩ => ⟨S1600000x64, .f32⟩
  | .hbm, ⟨73, _⟩ => ⟨S_, .f32⟩
  | .hbm, ⟨74, _⟩ => ⟨S100000x64, .f32⟩
  | .hbm, ⟨75, _⟩ => ⟨S1600000x1, .i32⟩
  | .hbm, ⟨76, _⟩ => ⟨S100000x64, .f32⟩
  | .hbm, ⟨77, _⟩ => ⟨S1x64, .f32⟩
  | .hbm, ⟨78, _⟩ => ⟨S100000x64, .f32⟩
  | .local _ .vmem, ⟨0, _⟩ => ⟨S10000x256, .f32⟩
  | .local _ .vmem, ⟨1, _⟩ => ⟨S10000x256, .f32⟩
  | .local _ .vmem, ⟨2, _⟩ => ⟨S256x128, .f32⟩
  | .local _ .vmem, ⟨3, _⟩ => ⟨S10000x128, .f32⟩
  | .local _ .vmem, ⟨4, _⟩ => ⟨S10000x128, .f32⟩
  | .local _ .vmem, ⟨5, _⟩ => ⟨S10000x128, .f32⟩
  | .local _ .vmem, ⟨6, _⟩ => ⟨S10000x128, .f32⟩
  | .local _ .vmem, ⟨7, _⟩ => ⟨S10000x128, .f32⟩
  | .local _ .vmem, ⟨8, _⟩ => ⟨S10000x128, .f32⟩
  | .local _ .vmem, ⟨9, _⟩ => ⟨S10000x1, .f32⟩
  | .local _ .vmem, ⟨10, _⟩ => ⟨S10000x1, .f32⟩
  | .local _ .vmem, ⟨11, _⟩ => ⟨S1x128, .f32⟩
  | .local _ .vmem, ⟨12, _⟩ => ⟨S10000x128, .f32⟩
  | .local _ .vmem, ⟨13, _⟩ => ⟨S10000x128, .f32⟩
  | .local _ .vmem, ⟨14, _⟩ => ⟨S10000x128, .f32⟩
  | .local _ .vmem, ⟨15, _⟩ => ⟨S10000x128, .f32⟩
  | .local _ .vmem, ⟨16, _⟩ => ⟨S128x64, .f32⟩
  | .local _ .vmem, ⟨17, _⟩ => ⟨S10000x64, .f32⟩
  | .local _ .vmem, ⟨18, _⟩ => ⟨S10000x64, .f32⟩
  | .local _ .vmem, ⟨19, _⟩ => ⟨S10000x64, .f32⟩
  | .local _ .vmem, ⟨20, _⟩ => ⟨S10000x64, .f32⟩
  | .local _ .vmem, ⟨21, _⟩ => ⟨S10000x64, .f32⟩
  | .local _ .vmem, ⟨22, _⟩ => ⟨S10000x64, .f32⟩
  | .local _ .vmem, ⟨23, _⟩ => ⟨S10000x1, .f32⟩
  | .local _ .vmem, ⟨24, _⟩ => ⟨S10000x1, .f32⟩
  | .local _ .vmem, ⟨25, _⟩ => ⟨S1x64, .f32⟩
  | .local _ .vmem, ⟨26, _⟩ => ⟨S10000x64, .f32⟩
  | .local _ .vmem, ⟨27, _⟩ => ⟨S10000x64, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c : Ref sig .tc := ⟨.hbm, 20, rfl⟩
abbrev main_v11 : Ref sig .tc := ⟨.hbm, 21, rfl⟩
abbrev main_v12 : Ref sig .tc := ⟨.hbm, 22, rfl⟩
abbrev main_c_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_c_3 : Ref sig .tc := ⟨.hbm, 29, rfl⟩
abbrev main_v18 : Ref sig .tc := ⟨.hbm, 30, rfl⟩
abbrev main_v19 : Ref sig .tc := ⟨.hbm, 31, rfl⟩
abbrev main_c_4 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_c_5 : Ref sig .tc := ⟨.hbm, 42, rfl⟩
abbrev main_v29 : Ref sig .tc := ⟨.hbm, 43, rfl⟩
abbrev main_v30 : Ref sig .tc := ⟨.hbm, 44, rfl⟩
abbrev main_c_6 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_cst_7 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_c_8 : Ref sig .tc := ⟨.hbm, 61, rfl⟩
abbrev main_v45 : Ref sig .tc := ⟨.hbm, 62, rfl⟩
abbrev main_v46 : Ref sig .tc := ⟨.hbm, 63, rfl⟩
abbrev main_c_9 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_cst_10 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg1_1 : Ref sig .tc := ⟨.vmem, 22, rfl⟩
abbrev cc3_stg2_0 : Ref sig .tc := ⟨.vmem, 23, rfl⟩
abbrev cc3_stg2_1 : Ref sig .tc := ⟨.vmem, 24, rfl⟩
abbrev cc3_stg3_0 : Ref sig .tc := ⟨.vmem, 25, rfl⟩
abbrev cc3_stg4_0 : Ref sig .tc := ⟨.vmem, 26, rfl⟩
abbrev cc3_stg4_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc3_sem0_0 : DmaSem sig := 19
abbrev cc3_sem0_1 : DmaSem sig := 20
abbrev cc3_sem1_0 : DmaSem sig := 21
abbrev cc3_sem1_1 : DmaSem sig := 22
abbrev cc3_sem2_0 : DmaSem sig := 23
abbrev cc3_sem2_1 : DmaSem sig := 24
abbrev cc3_sem3_0 : DmaSem sig := 25
abbrev cc3_sem4_0 : DmaSem sig := 26
abbrev cc3_sem4_1 : DmaSem sig := 27

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S10000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S10000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S10000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S10000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S10000x64 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  inb_S10000x256_S10000x256_0_0 : ∀ a, (![0, 0] : Fin 2 → Nat) a + S10000x256.size a ≤ S10000x256.size a
  h_S10000x256 : 0 < S10000x256.numel
  inb_S256x128_S256x128_0_0 : ∀ a, (![0, 0] : Fin 2 → Nat) a + S256x128.size a ≤ S256x128.size a
  h_S256x128 : 0 < S256x128.numel
  inb_S10000x128_S10000x128_0_0 : ∀ a, (![0, 0] : Fin 2 → Nat) a + S10000x128.size a ≤ S10000x128.size a
  h_S10000x128 : 0 < S10000x128.numel
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  shapeCasts_S128_S1x128 : S128.ShapeCasts S1x128
  shapeCasts_S10000x128_S10000x128 : S10000x128.ShapeCasts S10000x128
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  broadcasts_S10000x1_S10000x128 : S10000x1.Broadcasts S10000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  inb_S128x64_S128x64_0_0 : ∀ a, (![0, 0] : Fin 2 → Nat) a + S128x64.size a ≤ S128x64.size a
  h_S128x64 : 0 < S128x64.numel
  inb_S10000x64_S10000x64_0_0 : ∀ a, (![0, 0] : Fin 2 → Nat) a + S10000x64.size a ≤ S10000x64.size a
  h_S10000x64 : 0 < S10000x64.numel
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  shapeCasts_S64_S1x64 : S64.ShapeCasts S1x64
  shapeCasts_S10000x64_S10000x64 : S10000x64.ShapeCasts S10000x64
  broadcasts_S10000x1_S10000x64 : S10000x1.Broadcasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  reduces_S10000x64_S10000 : S10000x64.Reduces [1] S10000
  shapeCasts_S10000_S10000x1 : S10000.ShapeCasts S10000x1
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  dot_S10000x256_S256x128_S10000x128_1_0_0_1_n_n_wf : DotDims.WF S10000x256 S256x128 S10000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S10000x128_S128x64_S10000x64_1_0_0_1_n_n_wf : DotDims.WF S10000x128 S128x64 S10000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x256.size a ≤ S100000x256.size a
  hwx0_0 : ∀ i : grid0.Coords, EltTy.bits .f32 = 32 ∨ (Rect.block (s := S100000x256) S10000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S100000x128.size a
  hwx0_2 : ∀ i : grid0.Coords, EltTy.bits .f32 = 32 ∨ (Rect.block (s := S100000x128) S10000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .f32 = 32 ∨ (Rect.block (s := S100000x128) S10000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x128.size a ≤ S100000x128.size a
  hwx1_1 : ∀ i : grid1.Coords, EltTy.bits .f32 = 32 ∨ (Rect.block (s := S100000x128) S10000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x1.size a ≤ S100000x1.size a
  hwx1_2 : ∀ i : grid1.Coords, EltTy.bits .f32 = 32 ∨ (Rect.block (s := S100000x1) S10000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S10000x128.size a ≤ S100000x128.size a
  hwx1_4 : ∀ i : grid1.Coords, EltTy.bits .f32 = 32 ∨ (Rect.block (s := S100000x128) S10000x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S100000x128.size a
  hwx2_0 : ∀ i : grid2.Coords, EltTy.bits .f32 = 32 ∨ (Rect.block (s := S100000x128) S10000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x64.size a ≤ S128x64.size a
  hwx2_1 : ∀ i : grid2.Coords, EltTy.bits .f32 = 32 ∨ (Rect.block (s := S128x64) S128x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x64.size a ≤ S100000x64.size a
  hwx2_2 : ∀ i : grid2.Coords, EltTy.bits .f32 = 32 ∨ (Rect.block (s := S100000x64) S10000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S100000x64.size a
  hwx3_0 : ∀ i : grid3.Coords, EltTy.bits .f32 = 32 ∨ (Rect.block (s := S100000x64) S10000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S10000x64.size a ≤ S100000x64.size a
  hwx3_1 : ∀ i : grid3.Coords, EltTy.bits .f32 = 32 ∨ (Rect.block (s := S100000x64) S10000x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x1.size a ≤ S100000x1.size a
  hwx3_2 : ∀ i : grid3.Coords, EltTy.bits .f32 = 32 ∨ (Rect.block (s := S100000x1) S10000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S10000x64.size a ≤ S100000x64.size a
  hwx3_4 : ∀ i : grid3.Coords, EltTy.bits .f32 = 32 ∨ (Rect.block (s := S100000x64) S10000x64.size (cc3_transform_4 i) (hinb3_4 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def dot_S10000x256_S256x128_S10000x128_1_0_0_1_n_n : DotDims S10000x256 S256x128 S10000x128 where
  lhsContracting := [1]
  rhsContracting := [0]
  lhsNonContracting := [0]
  rhsNonContracting := [1]
  lhsBatch := []
  rhsBatch := []
  wf := dot_S10000x256_S256x128_S10000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

abbrev win0_0 : Pipeline.Window sig grid0 :=
  Pipeline.Window.ofSpec (Memref.whole main_arg0) S10000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v28) S10000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v41) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v28) S10000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v27) S10000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v42) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v43) S10000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v43) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v44) S10000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v57) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v44) S10000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v27) S10000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v58) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v59) S10000x64.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

class Facts : Prop extends Facts₀ where

variable [Facts]
-- ==== ReferenceIdeal.lean ====
abbrev S100000x256 : Shape := ⟨2, ![100000, 256]⟩
abbrev S2x1600000 : Shape := ⟨2, ![2, 1600000]⟩
abbrev S256x128 : Shape := ⟨2, ![256, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S100000x128 : Shape := ⟨2, ![100000, 128]⟩
abbrev S_ : Shape := ⟨0, ![]⟩
abbrev S100000 : Shape := ⟨1, ![100000]⟩
abbrev S1600000x1 : Shape := ⟨2, ![1600000, 1]⟩
abbrev S1600000x128 : Shape := ⟨2, ![1600000, 128]⟩
abbrev S100000x1 : Shape := ⟨2, ![100000, 1]⟩
abbrev S1x128 : Shape := ⟨2, ![1, 128]⟩
abbrev S100000x64 : Shape := ⟨2, ![100000, 64]⟩
abbrev S1600000x64 : Shape := ⟨2, ![1600000, 64]⟩
abbrev S1x64 : Shape := ⟨2, ![1, 64]⟩

abbrev nBuf : Space → Nat
  | .hbm => 136
  | .vmem => 0
  | .smem => 0
  | _ => 0

abbrev hbmTy0_0 (i : Nat) : BufTy := match i % 128 with
  | 0 => ⟨S100000x256, .f32⟩
  | 1 => ⟨S2x1600000, .i32⟩
  | 2 => ⟨S256x128, .f32⟩
  | 3 => ⟨S128, .f32⟩
  | 4 => ⟨S128x64, .f32⟩
  | 5 => ⟨S64, .f32⟩
  | 6 => ⟨S1x1600000, .i32⟩
  | 7 => ⟨S1600000, .i32⟩
  | 8 => ⟨S1x1600000, .i32⟩
  | 9 => ⟨S1600000, .i32⟩
  | 10 => ⟨S100000x128, .f32⟩
  | 11 => ⟨S_, .f32⟩
  | 12 => ⟨S1600000, .f32⟩
  | 13 => ⟨S_, .f32⟩
  | 14 => ⟨S100000, .f32⟩
  | 15 => ⟨S1600000x1, .i32⟩
  | 16 => ⟨S100000, .f32⟩
  | 17 => ⟨S_, .f32⟩
  | 18 => ⟨S100000, .f32⟩
  | 19 => ⟨S100000, .f32⟩
  | 20 => ⟨S100000, .f32⟩
  | 21 => ⟨S_, .i32⟩
  | 22 => ⟨S1600000, .i32⟩
  | 23 => ⟨S1600000, .i1⟩
  | 24 => ⟨S_, .i32⟩
  | 25 => ⟨S1600000, .i32⟩
  | 26 => ⟨S1600000, .i32⟩
  | 27 => ⟨S1600000, .i32⟩
  | 28 => ⟨S1600000x1, .i32⟩
  | 29 => ⟨S1600000, .f32⟩
  | 30 => ⟨S_, .i32⟩
  | 31 => ⟨S1600000, .i32⟩
  | 32 => ⟨S1600000, .i1⟩
  | 33 => ⟨S_, .i32⟩
  | 34 => ⟨S1600000, .i32⟩
  | 35 => ⟨S1600000, .i32⟩
  | 36 => ⟨S1600000, .i32⟩
  | 37 => ⟨S1600000x1, .i32⟩
  | 38 => ⟨S1600000, .f32⟩
  | 39 => ⟨S1600000, .f32⟩
  | 40 => ⟨S_, .i32⟩
  | 41 => ⟨S1600000, .i32⟩
  | 42 => ⟨S1600000, .i1⟩
  | 43 => ⟨S_, .i32⟩
  | 44 => ⟨S1600000, .i32⟩
  | 45 => ⟨S1600000, .i32⟩
  | 46 => ⟨S1600000, .i32⟩
  | 47 => ⟨S1600000x1, .i32⟩
  | 48 => ⟨S1600000x128, .f32⟩
  | 49 => ⟨S1600000x1, .f32⟩
  | 50 => ⟨S1600000x128, .f32⟩
  | 51 => ⟨S1600000x128, .f32⟩
  | 52 => ⟨S_, .f32⟩
  | 53 => ⟨S100000x128, .f32⟩
  | 54 => ⟨S1600000x1, .i32⟩
  | 55 => ⟨S100000x128, .f32⟩
  | 56 => ⟨S100000, .f32⟩
  | 57 => ⟨S100000x1, .f32⟩
  | 58 => ⟨S100000x128, .f32⟩
  | 59 => ⟨S100000x128, .f32⟩
  | 60 => ⟨S100000x128, .f32⟩
  | 61 => ⟨S1x128, .f32⟩
  | 62 => ⟨S100000x128, .f32⟩
  | 63 => ⟨S100000x128, .f32⟩
  | 64 => ⟨S_, .f32⟩
  | 65 => ⟨S100000x128, .f32⟩
  | 66 => ⟨S100000x128, .f32⟩
  | 67 => ⟨S100000x64, .f32⟩
  | 68 => ⟨S_, .f32⟩
  | 69 => ⟨S1600000, .f32⟩
  | 70 => ⟨S_, .f32⟩
  | 71 => ⟨S100000, .f32⟩
  | 72 => ⟨S1600000x1, .i32⟩
  | 73 => ⟨S100000, .f32⟩
  | 74 => ⟨S_, .f32⟩
  | 75 => ⟨S100000, .f32⟩
  | 76 => ⟨S100000, .f32⟩
  | 77 => ⟨S100000, .f32⟩
  | 78 => ⟨S_, .i32⟩
  | 79 => ⟨S1600000, .i32⟩
  | 80 => ⟨S1600000, .i1⟩
  | 81 => ⟨S_, .i32⟩
  | 82 => ⟨S1600000, .i32⟩
  | 83 => ⟨S1600000, .i32⟩
  | 84 => ⟨S1600000, .i32⟩
  | 85 => ⟨S1600000x1, .i32⟩
  | 86 => ⟨S1600000, .f32⟩
  | 87 => ⟨S_, .i32⟩
  | 88 => ⟨S1600000, .i32⟩
  | 89 => ⟨S1600000, .i1⟩
  | 90 => ⟨S_, .i32⟩
  | 91 => ⟨S1600000, .i32⟩
  | 92 => ⟨S1600000, .i32⟩
  | 93 => ⟨S1600000, .i32⟩
  | 94 => ⟨S1600000x1, .i32⟩
  | 95 => ⟨S1600000, .f32⟩
  | 96 => ⟨S1600000, .f32⟩
  | 97 => ⟨S_, .i32⟩
  | 98 => ⟨S1600000, .i32⟩
  | 99 => ⟨S1600000, .i1⟩
  | 100 => ⟨S_, .i32⟩
  | 101 => ⟨S1600000, .i32⟩
  | 102 => ⟨S1600000, .i32⟩
  | 103 => ⟨S1600000, .i32⟩
  | 104 => ⟨S1600000x1, .i32⟩
  | 105 => ⟨S1600000x64, .f32⟩
  | 106 => ⟨S1600000x1, .f32⟩
  | 107 => ⟨S1600000x64, .f32⟩
  | 108 => ⟨S1600000x64, .f32⟩
  | 109 => ⟨S_, .f32⟩
  | 110 => ⟨S100000x64, .f32⟩
  | 111 => ⟨S1600000x1, .i32⟩
  | 112 => ⟨S100000x64, .f32⟩
  | 113 => ⟨S100000, .f32⟩
  | 114 => ⟨S100000x1, .f32⟩
  | 115 => ⟨S100000x64, .f32⟩
  | 116 => ⟨S100000x64, .f32⟩
  | 117 => ⟨S100000x64, .f32⟩
  | 118 => ⟨S1x64, .f32⟩
  | 119 => ⟨S100000x64, .f32⟩
  | 120 => ⟨S100000x64, .f32⟩
  | 121 => ⟨S_, .f32⟩
  | 122 => ⟨S100000, .f32⟩
  | 123 => ⟨S_, .f32⟩
  | 124 => ⟨S100000, .f32⟩
  | 125 => ⟨S100000, .f32⟩
  | 126 => ⟨S100000x1, .f32⟩
  | 127 => ⟨S100000x64, .f32⟩
  | _ => ⟨S100000x256, .f32⟩

abbrev hbmTy0_1 (i : Nat) : BufTy := match i % 128 with
  | 0 => ⟨S100000x64, .f32⟩
  | 1 => ⟨S100000x64, .f32⟩
  | 2 => ⟨S_, .f32⟩
  | 3 => ⟨S100000, .f32⟩
  | 4 => ⟨S100000x1, .f32⟩
  | 5 => ⟨S100000x1, .f32⟩
  | 6 => ⟨S100000x64, .f32⟩
  | 7 => ⟨S100000x64, .f32⟩
  | _ => ⟨S100000x256, .f32⟩

abbrev hbmTy (i : Nat) : BufTy := match i / 128 with
  | 0 => hbmTy0_0 i
  | 1 => hbmTy0_1 i
  | _ => ⟨S100000x256, .f32⟩

abbrev bufTy : (tb : Table) → Fin (tcTables nBuf tb) → BufTy
  | .hbm, ⟨i, _⟩ => hbmTy i
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_c : Ref sig .tc := ⟨.hbm, 21, rfl⟩
abbrev main_v12 : Ref sig .tc := ⟨.hbm, 22, rfl⟩
abbrev main_v13 : Ref sig .tc := ⟨.hbm, 23, rfl⟩
abbrev main_c_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_c_3 : Ref sig .tc := ⟨.hbm, 30, rfl⟩
abbrev main_v19 : Ref sig .tc := ⟨.hbm, 31, rfl⟩
abbrev main_v20 : Ref sig .tc := ⟨.hbm, 32, rfl⟩
abbrev main_c_4 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_c_5 : Ref sig .tc := ⟨.hbm, 40, rfl⟩
abbrev main_v27 : Ref sig .tc := ⟨.hbm, 41, rfl⟩
abbrev main_v28 : Ref sig .tc := ⟨.hbm, 42, rfl⟩
abbrev main_c_6 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_7 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_call0_cst : Ref sig .tc := ⟨.hbm, 64, rfl⟩
abbrev main_call0_v0 : Ref sig .tc := ⟨.hbm, 65, rfl⟩
abbrev main_v48 : Ref sig .tc := ⟨.hbm, 66, rfl⟩
abbrev main_v49 : Ref sig .tc := ⟨.hbm, 67, rfl⟩
abbrev main_cst_8 : Ref sig .tc := ⟨.hbm, 68, rfl⟩
abbrev main_v50 : Ref sig .tc := ⟨.hbm, 69, rfl⟩
abbrev main_cst_9 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_cst_10 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_c_11 : Ref sig .tc := ⟨.hbm, 78, rfl⟩
abbrev main_v57 : Ref sig .tc := ⟨.hbm, 79, rfl⟩
abbrev main_v58 : Ref sig .tc := ⟨.hbm, 80, rfl⟩
abbrev main_c_12 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_c_13 : Ref sig .tc := ⟨.hbm, 87, rfl⟩
abbrev main_v64 : Ref sig .tc := ⟨.hbm, 88, rfl⟩
abbrev main_v65 : Ref sig .tc := ⟨.hbm, 89, rfl⟩
abbrev main_c_14 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_c_15 : Ref sig .tc := ⟨.hbm, 97, rfl⟩
abbrev main_v72 : Ref sig .tc := ⟨.hbm, 98, rfl⟩
abbrev main_v73 : Ref sig .tc := ⟨.hbm, 99, rfl⟩
abbrev main_c_16 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_cst_17 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_call1_cst : Ref sig .tc := ⟨.hbm, 121, rfl⟩
abbrev main_call1_v0 : Ref sig .tc := ⟨.hbm, 122, rfl⟩
abbrev main_call1_cst_0 : Ref sig .tc := ⟨.hbm, 123, rfl⟩
abbrev main_call1_v1 : Ref sig .tc := ⟨.hbm, 124, rfl⟩
abbrev main_call1_v2 : Ref sig .tc := ⟨.hbm, 125, rfl⟩
abbrev main_call1_v3 : Ref sig .tc := ⟨.hbm, 126, rfl⟩
abbrev main_call1_v4 : Ref sig .tc := ⟨.hbm, 127, rfl⟩
abbrev main_call1_v5 : Ref sig .tc := ⟨.hbm, 128, rfl⟩
abbrev main_call1_v6 : Ref sig .tc := ⟨.hbm, 129, rfl⟩
abbrev main_call1_cst_1 : Ref sig .tc := ⟨.hbm, 130, rfl⟩
abbrev main_call1_v7 : Ref sig .tc := ⟨.hbm, 131, rfl⟩
abbrev main_call1_v8 : Ref sig .tc := ⟨.hbm, 132, rfl⟩
abbrev main_call1_v9 : Ref sig .tc := ⟨.hbm, 133, rfl⟩
abbrev main_call1_v10 : Ref sig .tc := ⟨.hbm, 134, rfl⟩
abbrev main_v93 : Ref sig .tc := ⟨.hbm, 135, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  reducesTo_S100000x64_S100000_d1 : S100000x64.ReducesTo [1] S100000
  h_S_ : 0 < S_.numel
  dot_S100000x256_S256x128_S100000x128_1_0_0_1_n_n_wf : DotDims.WF S100000x256 S256x128 S100000x128 [1] [0] [0] [1] [] []
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x64_S100000x64_1_0_0_1_n_n_wf : DotDims.WF S100000x128 S128x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1

variable [Facts₀]

def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

class Facts : Prop extends Facts₀ where

variable [Facts]
-- ==== Proof.KRun.lean ====
/-
  The idealized kernel's run, read whole.

  The program is four pipelined regions among three stretches of host operations. Every weakly fair execution from a
  memory with zero counters terminates, and in its final state every buffer that outlives the regions holds what the
  fold through the program's segments leaves there: the launch contents carried through each stretch of host operations
  and, across each region, that region's arrays at what its write-backs leave and every other buffer as it was.
-/
import proofs.«123945_j62423054680283_2_alg».proof.Proof.Gen.KernelIdeal.Frame

set_option maxRecDepth 16384

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting, and every buffer that outlives the regions ends at the
    last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W7 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h => h)

end Cert.KernelIdeal.Whole

end
-- ==== Proof.Spec.lean ====
/-
  What each of the four pipelined regions computes, as one function of whole arrays.

  Two graph-convolution layers over 100000 nodes. A dense product of the node features with a weight matrix; then, row
  by row, the neighbourhood sum plus the node's own product row scaled by the node's squared inverse root degree, plus
  the bias; after the first layer the positive part, after the second the logarithm of the softmax along the row (the
  row minus its maximum, minus the logarithm of the sum of the exponentials of that difference). Over the extended
  reals, index by index; the neighbourhood sums, which gather and scatter along the edges, enter as given arrays.
-/
import Idealize.ShloMosaic.PureOps.Ideal
import Idealize.ShloMosaic.Lib.ValueIdx

noncomputable section

namespace Cert.Gcn

open Idealize.ShloMosaic Idealize.ShloMosaic.ValueIdx

/-- Real-valued arrays of rank two with literal extents. -/
abbrev Arr2 (a b : ℕ) := (⟨2, ![a, b]⟩ : Shape).Idx → EReal

/-- The dense product: entry (r, c) is the sum over k of x (r, k) · w (k, c). -/
def dense {n k d : ℕ} (x : Arr2 n k) (w : Arr2 k d) : Arr2 n d :=
  fun i => ∑ q : Fin k, x (ix2 (i 0) q) * w (ix2 q (i 1))

/-- A layer's row before its activation: the neighbourhood sum, plus the node's own row scaled by the node's
    coefficient (a column), plus the bias (a row). -/
def pre {n d : ℕ} (seg h : Arr2 n d) (col : Arr2 n 1) (row : Arr2 1 d) : Arr2 n d :=
  fun i => seg i + h i * col (ix2 (i 0) (0 : Fin 1)) + row (ix2 (0 : Fin 1) (i 1))

/-- The first layer's output: the positive part of `pre` (the maximum with the value the zero word denotes). -/
def positivePart {n d : ℕ} (z : EReal) (a : Arr2 n d) : Arr2 n d := fun i => max (a i) z

/-- A row's maximum, folded from the value `bot` the accumulator's word denotes. -/
def rowMax {n d : ℕ} (bot : EReal) (a : Arr2 n d) (r : Fin n) : EReal :=
  (Finset.univ : Finset (Fin d)).fold max bot fun j => a (ix2 r j)

/-- The logarithm of the softmax along each row: with `s = a − rowMax`, entry (r, c) is
    `s (r, c) − log (Σ_j exp (s (r, j)))`. -/
def logSoftmax {n d : ℕ} (bot : EReal) (a : Arr2 n d) : Arr2 n d :=
  fun i => (a i - rowMax bot a (i 0)) - Ideal.log (∑ j : Fin d, Ideal.exp (a (ix2 (i 0) j) - rowMax bot a (i 0)))

end Cert.Gcn

end
-- ==== Proof.LibPlainDot.lean ====
/-
  A plain matrix product read at an index, for any extents.

  For the dimension numbers of an `[M, K]` by `[K, N]` product (contract the left operand's columns with the right
  operand's rows, no batch axis), both the kernel's matrix unit accumulating into zero and the host's `dot_general`,
  read at the extended reals at entry `(r, c)`, are the sum over `k` of `lhs (r, k) * rhs (k, c)`.
-/
import Idealize.ShloMosaic.Lib.ValueIdx
import Idealize.ShloMosaic.PureOps.Ideal.Laws

noncomputable section

namespace Cert.Sage

open Idealize.ShloMosaic Idealize.ShloMosaic.ValueIdx

/-- The left operand's row coordinate is the result's row. -/
theorem plain_lhs_row {M K N : ℕ} (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The right operand's column coordinate is the result's column. -/
theorem plain_rhs_col {M K N : ℕ} (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The left operand's index at result entry `(r, c)` and the contraction index carrying `k` is `(r, k)`. -/
theorem plain_lhsIdx {M K N : ℕ} (r : Fin M) (c : Fin N) (k : Fin K) :
    (DotDims.plain M K N).lhsIdx (ix2 r c) ((contrEquiv1 (DotDims.plain M K N) K rfl rfl).symm k) = ix2 r k := by
  have hk := contrEquiv1_symm_val (DotDims.plain M K N) K rfl rfl k
  funext a
  refine Fin.ext ?_
  match a with
  | ⟨0, _⟩ => exact plain_lhs_row _ _
  | ⟨1, _⟩ => exact ((DotDims.plain M K N).lhsIdx_val_of_single rfl (ix2 r c) _).trans hk

/-- The right operand's index at result entry `(r, c)` and the contraction index carrying `k` is `(k, c)`. -/
theorem plain_rhsIdx {M K N : ℕ} (r : Fin M) (c : Fin N) (k : Fin K) :
    (DotDims.plain M K N).rhsIdx (ix2 r c) ((contrEquiv1 (DotDims.plain M K N) K rfl rfl).symm k) = ix2 k c := by
  have hk := contrEquiv1_symm_val (DotDims.plain M K N) K rfl rfl k
  funext a
  refine Fin.ext ?_
  match a with
  | ⟨0, _⟩ => exact ((DotDims.plain M K N).rhsIdx_val_of_single rfl (ix2 r c) _).trans hk
  | ⟨1, _⟩ => exact plain_rhs_col _ _

/-- The contraction sum of a plain product at entry `(r, c)`, re-indexed by the contracted coordinate. -/
theorem plain_contraction {M K N : ℕ} (lhs : (⟨2, ![M, K]⟩ : Shape).Idx → EReal) (rhs : (⟨2, ![K, N]⟩ : Shape).Idx → EReal)
    (r : Fin M) (c : Fin N) :
    (∑ q : (DotDims.plain M K N).contr.Idx,
        lhs ((DotDims.plain M K N).lhsIdx (ix2 r c) q) * rhs ((DotDims.plain M K N).rhsIdx (ix2 r c) q))
      = ∑ k : Fin K, lhs (ix2 r k) * rhs (ix2 k c) := by
  rw [← Equiv.sum_comp (contrEquiv1 (DotDims.plain M K N) K rfl rfl).symm]
  refine Finset.sum_congr rfl fun k _ => ?_
  rw [plain_lhsIdx, plain_rhsIdx]

/-- The matrix unit accumulating into the zero splat, at entry `(r, c)`. -/
theorem matmul_plain_zero_apply {M K N : ℕ} {φ₁ φ₂ : FTy} (prec : Option ContractPrecision)
    (lhs : FVec Ideal ⟨2, ![M, K]⟩ φ₁) (rhs : FVec Ideal ⟨2, ![K, N]⟩ φ₂) (r : Fin M) (c : Fin N) :
    FloatOps.matmul (DotDims.plain M K N) prec lhs rhs (constant (F := Ideal) ⟨2, ![M, N]⟩ .f32 0x00000000#32) (ix2 r c)
      = ∑ k : Fin K, lhs (ix2 r k) * rhs (ix2 k c) :=
  (Ideal.matmul_constant_zero_apply (DotDims.plain M K N) prec lhs rhs (ix2 r c)).trans (plain_contraction lhs rhs r c)

/-- The host's `dot_general`, at entry `(r, c)`. -/
theorem dotGeneral_plain_apply {M K N : ℕ} {φ₁ φ₂ : FTy} (prec : Option ContractPrecision) (sched : HostSchedule)
    (lhs : FVec Ideal ⟨2, ![M, K]⟩ φ₁) (rhs : FVec Ideal ⟨2, ![K, N]⟩ φ₂) (r : Fin M) (c : Fin N) :
    FloatOps.dotGeneral (DotDims.plain M K N) prec sched lhs rhs (ix2 r c)
      = ∑ k : Fin K, lhs (ix2 r k) * rhs (ix2 k c) :=
  (Ideal.dotGeneral_apply (DotDims.plain M K N) prec sched lhs rhs (ix2 r c)).trans (plain_contraction lhs rhs r c)

end Cert.Sage

end
-- ==== Proof.LibLayout.lean ====
/-
  Unit axes added by a shape cast and filled by a broadcast, read at coordinates.

  A row statistic (a maximum or a sum along the last axis of an `[a, b]` array) comes back as an `[a]` vector; to
  combine it with the array again it is cast to a column `[a, 1]` and broadcast to `[a, b]`: entry (p, c) of the
  result is entry p of the vector. The same happens one rank up when every row of one `[a, c]` array is paired with
  every row of another `[b, c]` array: the first is cast to `[a, 1, c]` and broadcast along the new middle axis, the
  second, as `[1, b, c]`, along a new leading axis; entry (p, q, l) of the two results is entry (p, l) of the first and
  entry (q, l) of the second. Each lemma states one such step for arbitrary extents; a cast keeps the row-major
  position, a broadcast reads coordinate 0 on an axis of extent one and the same coordinate elsewhere.
-/
import Idealize.ShloMosaic.Lib.ValueLayout
import Idealize.ShloMosaic.Lib.Pipeline.Value
import Idealize.ShloMosaic.Lib.ValueIdx

noncomputable section

namespace Cert.LibLayout

open Idealize.ShloMosaic Idealize.ShloMosaic.ValueIdx

variable {α : Type}

/-- An `[a]` vector cast to a column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a, c]` array cast to `[a, 1, c]` reads, at `(i, u, l)`, the operand at `(i, l)`. -/
theorem shapeCast_ac_a1c_apply {a c : ℕ} (x : (⟨2, ![a, c]⟩ : Shape).Idx → α) (h : (⟨2, ![a, c]⟩ : Shape).ShapeCasts ⟨3, ![a, 1, c]⟩)
    (i : Fin a) (u : Fin 1) (l : Fin c) : shapeCast ⟨3, ![a, 1, c]⟩ x h (ix3 i u l) = x (ix2 i l) :=
  shapeCast_apply x h _ _ (by
    have hu : u.val = 0 := by omega
    rw [Shape.rowMajor_val_three, Shape.rowMajor_val_two]
    show i.val * c + l.val = (i.val * 1 + u.val) * c + l.val
    rw [hu, Nat.mul_one, Nat.add_zero])

/-- An `[a, 1, c]` array broadcast to `[a, b, c]` reads, at `(p, q, l)`, the operand at `(p, 0, l)`. -/
theorem broadcastTo_a1c_abc_apply {a b c : ℕ} (v : (⟨3, ![a, 1, c]⟩ : Shape).Idx → α)
    (h : (⟨3, ![a, 1, c]⟩ : Shape).Broadcasts ⟨3, ![a, b, c]⟩) (p : Fin a) (q : Fin b) (l : Fin c) :
    broadcastTo ⟨3, ![a, b, c]⟩ v h (ix3 p q l) = v (ix3 p (0 : Fin 1) l) := by
  refine broadcastTo_apply v h (ix3 p q l) (ix3 p (0 : Fin 1) l) fun ax => ?_
  match ax with
  | ⟨0, _⟩ =>
    show p.val = if a = 1 then 0 else p.val
    split
    · have := p.isLt; omega
    · rfl
  | ⟨1, _⟩ => rfl
  | ⟨2, _⟩ =>
    show l.val = if c = 1 then 0 else l.val
    split
    · have := l.isLt; omega
    · rfl

/-- A `[1, b, c]` array broadcast to `[a, b, c]` reads, at `(p, q, l)`, the operand at `(0, q, l)`. -/
theorem broadcastTo_1bc_abc_apply {a b c : ℕ} (v : (⟨3, ![1, b, c]⟩ : Shape).Idx → α)
    (h : (⟨3, ![1, b, c]⟩ : Shape).Broadcasts ⟨3, ![a, b, c]⟩) (p : Fin a) (q : Fin b) (l : Fin c) :
    broadcastTo ⟨3, ![a, b, c]⟩ v h (ix3 p q l) = v (ix3 (0 : Fin 1) q l) := by
  refine broadcastTo_apply v h (ix3 p q l) (ix3 (0 : Fin 1) q l) fun ax => ?_
  match ax with
  | ⟨0, _⟩ => rfl
  | ⟨1, _⟩ =>
    show q.val = if b = 1 then 0 else q.val
    split
    · have := q.isLt; omega
    · rfl
  | ⟨2, _⟩ =>
    show l.val = if c = 1 then 0 else l.val
    split
    · have := l.isLt; omega
    · rfl

end Cert.LibLayout

end
-- ==== Proof.Payload.lean ====
/-
  Each region's body, as a function of the blocks it loads.

  The body of the two matrix regions is the product of a block of rows with the whole weight matrix; the body of the two
  row-wise regions adds, entry by entry, the neighbourhood sum, the product row scaled by the node's coefficient (a column
  spread along the row) and the bias (a row spread down the rows), and then takes the positive part (first layer) or the
  logarithm of the softmax along the row (second layer). Over the extended reals each is the corresponding whole-array
  function applied to the blocks.
-/
import proofs.«123945_j62423054680283_2_alg».proof.Proof.Gen.KernelIdeal.Skeleton
import proofs.«123945_j62423054680283_2_alg».proof.Proof.Spec
import proofs.«123945_j62423054680283_2_alg».proof.Proof.LibPlainDot
import proofs.«123945_j62423054680283_2_alg».proof.Proof.LibLayout
import Idealize.ShloMosaic.Lib.ValueLayout
import Idealize.ShloMosaic.Lib.Pipeline.Value
import Idealize.ShloMosaic.PureOps.Ideal.Laws

noncomputable section

namespace Cert.Gcn

open Idealize.ShloMosaic Idealize.ShloMosaic.ValueIdx Cert.KernelIdeal Cert.KernelIdeal.Gen

/-- The value the zero word denotes. -/
abbrev zeroWord : EReal := Ideal.ofBits .f32 0x00000000#32
/-- The value the accumulator word of the row maximum denotes (the word of minus infinity). -/
abbrev botWord : EReal := Ideal.ofBits .f32 0xFF800000#32

/-- The first matrix region's body is the dense product of its two loaded blocks. -/
theorem k0_pay1_eq (v0 : Vec Ideal S10000x256 .f32) (v1 : Vec Ideal S256x128 .f32) : k0_pay1 v0 v1 = dense v0 v1 := by
  funext j
  obtain ⟨r, c, rfl⟩ : ∃ (r : Fin 10000) (c : Fin 128), j = ix2 r c := ⟨j 0, j 1, eq_ix2 j⟩
  unfold k0_pay1
  exact Cert.Sage.matmul_plain_zero_apply none v0 v1 r c

/-- The second matrix region's body likewise. -/
theorem k2_pay1_eq (v0 : Vec Ideal S10000x128 .f32) (v2 : Vec Ideal S128x64 .f32) : k2_pay1 v0 v2 = dense v0 v2 := by
  funext j
  obtain ⟨r, c, rfl⟩ : ∃ (r : Fin 10000) (c : Fin 64), j = ix2 r c := ⟨j 0, j 1, eq_ix2 j⟩
  unfold k2_pay1
  simp only [shapeCast_self]
  exact Cert.Sage.matmul_plain_zero_apply none v0 v2 r c

/-- The sum the two row-wise bodies start with, read at an entry of the block. -/
theorem pre_block128 (v0 v2 : Vec Ideal S10000x128 .f32) (v4 : Vec Ideal S10000x1 .f32) (v9 : Vec Ideal S1x128 .f32)
    (r : Fin 10000) (c : Fin 128) :
    (addf (addf v0 (mulf v2 (broadcastTo S10000x128 v4 broadcasts_S10000x1_S10000x128)))
      (broadcastTo S10000x128 v9 broadcasts_S1x128_S10000x128) : FVec Ideal S10000x128 .f32) (ix2 r c) = pre v0 v2 v4 v9 (ix2 r c) := by
  show v0 (ix2 r c) + v2 (ix2 r c) * broadcastTo S10000x128 v4 broadcasts_S10000x1_S10000x128 (ix2 r c)
      + broadcastTo S10000x128 v9 broadcasts_S1x128_S10000x128 (ix2 r c) = _
  rw [Cert.LibLayout.broadcastTo_a1_ab_apply, broadcastTo_1b_ab_apply]
  rfl

theorem pre_block64 (v0 v2 : Vec Ideal S10000x64 .f32) (v4 : Vec Ideal S10000x1 .f32) (v9 : Vec Ideal S1x64 .f32)
    (r : Fin 10000) (c : Fin 64) :
    (addf (addf v0 (mulf v2 (broadcastTo S10000x64 v4 broadcasts_S10000x1_S10000x64)))
      (broadcastTo S10000x64 v9 broadcasts_S1x64_S10000x64) : FVec Ideal S10000x64 .f32) (ix2 r c) = pre v0 v2 v4 v9 (ix2 r c) := by
  show v0 (ix2 r c) + v2 (ix2 r c) * broadcastTo S10000x64 v4 broadcasts_S10000x1_S10000x64 (ix2 r c)
      + broadcastTo S10000x64 v9 broadcasts_S1x64_S10000x64 (ix2 r c) = _
  rw [Cert.LibLayout.broadcastTo_a1_ab_apply, broadcastTo_1b_ab_apply]
  rfl

/-- The first row-wise region's body: the positive part of the sum. -/
theorem k1_pay1_eq (v0 v2 : Vec Ideal S10000x128 .f32) (v4 : Vec Ideal S10000x1 .f32) (v9 : Vec Ideal S1x128 .f32) :
    k1_pay1 v0 v2 v4 v9 = positivePart zeroWord (pre v0 v2 v4 v9) := by
  funext j
  obtain ⟨r, c, rfl⟩ : ∃ (r : Fin 10000) (c : Fin 128), j = ix2 r c := ⟨j 0, j 1, eq_ix2 j⟩
  unfold k1_pay1
  simp only [shapeCast_self]
  show max ((addf (addf v0 (mulf v2 (broadcastTo S10000x128 v4 broadcasts_S10000x1_S10000x128)))
      (broadcastTo S10000x128 v9 broadcasts_S1x128_S10000x128) : FVec Ideal S10000x128 .f32) (ix2 r c)) zeroWord = _
  rw [pre_block128]
  rfl

/-- A row of the block with the column coordinate inserted. -/
theorem lift_row (r : Fin 10000) (k : Fin 64) : reduces_S10000x64_S10000.lift (ix1 r) k = ix2 r k := by
  funext a
  match a with
  | ⟨0, _⟩ => rfl
  | ⟨1, _⟩ => rfl

/-- The row maximum as the body takes it (a lane reduction, cast to a column and spread along the row), at an entry. -/
theorem rowMax_spread (A : FVec Ideal S10000x64 .f32) (r : Fin 10000) (c : Fin 64) :
    broadcastTo S10000x64 (shapeCast S10000x1 (multiReduction .maximumf [1] S10000 A 0xFF800000#32 reduces_S10000x64_S10000 (.inl rfl) rfl)
      shapeCasts_S10000_S10000x1) broadcasts_S10000x1_S10000x64 (ix2 r c) = rowMax botWord A r := by
  rw [Cert.LibLayout.broadcastTo_a1_ab_apply, Cert.LibLayout.shapeCast_a_a1_apply]
  refine (Ideal.multiReduction_maximumf_single A 0xFF800000#32 reduces_S10000x64_S10000 (.inl rfl) rfl (ix1 r)).trans ?_
  unfold rowMax
  refine congrArg (Finset.fold max botWord · Finset.univ) ?_
  funext k
  exact congrArg A (lift_row r k)

/-- The logarithm of the row's sum as the body takes it, at an entry. -/
theorem logRowSum_spread (E : FVec Ideal S10000x64 .f32) (r : Fin 10000) (c : Fin 64) :
    broadcastTo S10000x64 (log (shapeCast S10000x1 (multiReduction .add [1] S10000 E 0x00000000#32 reduces_S10000x64_S10000 (.inl rfl) rfl)
      shapeCasts_S10000_S10000x1)) broadcasts_S10000x1_S10000x64 (ix2 r c) = Ideal.log (∑ k : Fin 64, E (ix2 r k)) := by
  rw [Cert.LibLayout.broadcastTo_a1_ab_apply]
  show Ideal.log (shapeCast S10000x1 (multiReduction .add [1] S10000 E 0x00000000#32 reduces_S10000x64_S10000 (.inl rfl) rfl)
      shapeCasts_S10000_S10000x1 (ix2 r (0 : Fin 1))) = _
  rw [Cert.LibLayout.shapeCast_a_a1_apply]
  refine congrArg Ideal.log ?_
  refine (Ideal.multiReduction_add_single E 0x00000000#32 reduces_S10000x64_S10000 (.inl rfl) rfl (ix1 r)).trans ?_
  exact Finset.sum_congr rfl fun k _ => congrArg E (lift_row r k)

/-- The second row-wise region's body: the logarithm of the softmax along each row of the sum. -/
theorem k3_pay1_eq (v0 v2 : Vec Ideal S10000x64 .f32) (v4 : Vec Ideal S10000x1 .f32) (v9 : Vec Ideal S1x64 .f32) :
    k3_pay1 v0 v2 v4 v9 = logSoftmax botWord (pre v0 v2 v4 v9) := by
  funext j
  obtain ⟨r, c, rfl⟩ : ∃ (r : Fin 10000) (c : Fin 64), j = ix2 r c := ⟨j 0, j 1, eq_ix2 j⟩
  unfold k3_pay1
  simp only [shapeCast_self]
  have hA : (addf (addf v0 (mulf v2 (broadcastTo S10000x64 v4 broadcasts_S10000x1_S10000x64)))
      (broadcastTo S10000x64 v9 broadcasts_S1x64_S10000x64) : FVec Ideal S10000x64 .f32) = pre v0 v2 v4 v9 := by
    funext i
    obtain ⟨p, q, rfl⟩ : ∃ (p : Fin 10000) (q : Fin 64), i = ix2 p q := ⟨i 0, i 1, eq_ix2 i⟩
    exact pre_block64 v0 v2 v4 v9 p q
  rw [hA]
  generalize pre v0 v2 v4 v9 = A
  generalize hM : broadcastTo S10000x64 (shapeCast S10000x1 (multiReduction (F := Ideal) .maximumf [1] S10000 A 0xFF800000#32 reduces_S10000x64_S10000 (.inl rfl) rfl)
      shapeCasts_S10000_S10000x1) broadcasts_S10000x1_S10000x64 = M
  have hMr : ∀ (p : Fin 10000) (k : Fin 64), M (ix2 p k) = rowMax botWord A p := fun p k => by
    rw [← hM]; exact rowMax_spread A p k
  rw [subf_apply, logRowSum_spread, subf_apply, hMr]
  unfold logSoftmax
  refine congrArg (fun z => (A (ix2 r c) - rowMax botWord A r) - Ideal.log z) ?_
  refine Finset.sum_congr rfl fun k _ => ?_
  show Ideal.exp (A (ix2 r k) - M (ix2 r k)) = _
  rw [hMr]

end Cert.Gcn

end
-- ==== Proof.BlockLaws.lean ====
/-
  Each of the four whole-array functions is computed row by row.

  A block of consecutive rows of the result depends on the same rows of the row-indexed operands only (and on the whole
  of the weight matrix or of the bias row): for a map `e` from a block's rows to the array's rows, if a block of every
  row-indexed operand holds the operand's rows `e r`, the function of the blocks at row `r` is the function of the whole
  arrays at row `e r`.
-/
import proofs.«123945_j62423054680283_2_alg».proof.Proof.Spec

noncomputable section

namespace Cert.Gcn

open Idealize.ShloMosaic Idealize.ShloMosaic.ValueIdx

variable {N n k d : ℕ} (e : Fin n → Fin N)

theorem dense_rows (X : Arr2 N k) (W Wb : Arr2 k d) (Xb : Arr2 n k) (hX : ∀ r q, Xb (ix2 r q) = X (ix2 (e r) q))
    (hW : ∀ q c, Wb (ix2 q c) = W (ix2 q c)) (r : Fin n) (c : Fin d) :
    dense Xb Wb (ix2 r c) = dense X W (ix2 (e r) c) := by
  unfold dense
  exact Finset.sum_congr rfl fun q _ => by
    show Xb (ix2 r q) * Wb (ix2 q c) = X (ix2 (e r) q) * W (ix2 q c)
    rw [hX, hW]

theorem pre_rows (seg h : Arr2 N d) (col : Arr2 N 1) (row rowb : Arr2 1 d) (segb hb : Arr2 n d) (colb : Arr2 n 1)
    (hseg : ∀ r c, segb (ix2 r c) = seg (ix2 (e r) c)) (hh : ∀ r c, hb (ix2 r c) = h (ix2 (e r) c))
    (hcol : ∀ r u, colb (ix2 r u) = col (ix2 (e r) u)) (hrow : ∀ u c, rowb (ix2 u c) = row (ix2 u c)) (r : Fin n) (c : Fin d) :
    pre segb hb colb rowb (ix2 r c) = pre seg h col row (ix2 (e r) c) := by
  show segb (ix2 r c) + hb (ix2 r c) * colb (ix2 r 0) + rowb (ix2 0 c) = seg (ix2 (e r) c) + h (ix2 (e r) c) * col (ix2 (e r) 0) + row (ix2 0 c)
  rw [hseg, hh, hcol, hrow]

theorem positivePart_rows (z : EReal) (A : Arr2 N d) (B : Arr2 n d) (hB : ∀ r c, B (ix2 r c) = A (ix2 (e r) c)) (r : Fin n) (c : Fin d) :
    positivePart z B (ix2 r c) = positivePart z A (ix2 (e r) c) := by
  show max (B (ix2 r c)) z = max (A (ix2 (e r) c)) z
  rw [hB]

theorem rowMax_rows (bot : EReal) (A : Arr2 N d) (B : Arr2 n d) (hB : ∀ r c, B (ix2 r c) = A (ix2 (e r) c)) (r : Fin n) :
    rowMax bot B r = rowMax bot A (e r) := by
  unfold rowMax
  exact congrArg (Finset.fold max bot · Finset.univ) (funext fun j => hB r j)

theorem logSoftmax_rows (bot : EReal) (A : Arr2 N d) (B : Arr2 n d) (hB : ∀ r c, B (ix2 r c) = A (ix2 (e r) c)) (r : Fin n) (c : Fin d) :
    logSoftmax bot B (ix2 r c) = logSoftmax bot A (ix2 (e r) c) := by
  show (B (ix2 r c) - rowMax bot B r) - Ideal.log (∑ j : Fin d, Ideal.exp (B (ix2 r j) - rowMax bot B r))
    = (A (ix2 (e r) c) - rowMax bot A (e r)) - Ideal.log (∑ j : Fin d, Ideal.exp (A (ix2 (e r) j) - rowMax bot A (e r)))
  rw [rowMax_rows e bot A B hB r, hB]
  exact congrArg (fun z => (A (ix2 (e r) c) - rowMax bot A (e r)) - Ideal.log z)
    (Finset.sum_congr rfl fun j _ => by rw [hB])

end Cert.Gcn

end
-- ==== Proof.Region0.lean ====
/-
  The first matrix region, whole: its output array after the run is the dense product of its two operand arrays as the
  region finds them.

  The grid has ten points; point `t` loads rows `10000 t … 10000 t + 9999` of the left operand and the whole right operand,
  and writes back the same rows of the output. What it writes back is the dense product of the loaded blocks, which is
  those rows of the dense product of the whole arrays; the ten blocks of rows cover the output.
-/
import proofs.«123945_j62423054680283_2_alg».proof.Proof.Gen.KernelIdeal.Frame
import proofs.«123945_j62423054680283_2_alg».proof.Proof.Payload
import proofs.«123945_j62423054680283_2_alg».proof.Proof.BlockLaws

set_option maxRecDepth 16384

noncomputable section

namespace Cert.Gcn.Region0

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Gcn

variable (V : (c : Dev nD) → (b : Ref sig .tc) → Buf (Elt Ideal) ((c : Thread nD τ).loc b))

theorem hz : (![0, 0] : Fin 2 → Nat) = fun _ => 0 := funext fun a => by fin_cases a <;> rfl

/-- Row `r` of point `t`'s blocks is row `10000 t + r` of the arrays. -/
def rowOf (t : Fin cfg0.N) (r : Fin 10000) : Fin 100000 :=
  ⟨t.val * 10000 + r.val, by have := t.isLt; have h : cfg0.N = 10 := N_0; have := r.isLt; omega⟩

/-- The printed index maps over the grid: the row-blocked windows are at block row `t`, block column 0; the weight
    matrix's window stays at block (0, 0). -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

theorem emb_0 (t : Fin cfg0.N) (r : Fin 10000) (q : Fin 256) :
    ((cfg0.win 0).blk t).view.emb (ix2 r q) = ix2 (rowOf t r) q := by
  obtain ⟨e0, e1, -⟩ := idx_facts t
  funext a; apply Fin.ext
  match a with
  | ⟨0, _⟩ => show win0_0.index t (0 : Fin 2) * 10000 + 1 * r.val = t.val * 10000 + r.val; omega
  | ⟨1, _⟩ => show win0_0.index t (1 : Fin 2) * 256 + 1 * q.val = q.val; omega

theorem emb_1 (t : Fin cfg0.N) (q : Fin 256) (c : Fin 128) :
    ((cfg0.win 1).blk t).view.emb (ix2 q c) = ix2 q c := by
  obtain ⟨-, -, e0, e1, -⟩ := idx_facts t
  funext a; apply Fin.ext
  match a with
  | ⟨0, _⟩ => show win0_1.index t (0 : Fin 2) * 256 + 1 * q.val = q.val; omega
  | ⟨1, _⟩ => show win0_1.index t (1 : Fin 2) * 128 + 1 * c.val = c.val; omega

theorem emb_2 (t : Fin cfg0.N) (r : Fin 10000) (c : Fin 128) :
    ((cfg0.win 2).blk t).view.emb (ix2 r c) = ix2 (rowOf t r) c := by
  obtain ⟨-, -, -, -, e0, e1⟩ := idx_facts t
  funext a; apply Fin.ext
  match a with
  | ⟨0, _⟩ => show win0_2.index t (0 : Fin 2) * 10000 + 1 * r.val = t.val * 10000 + r.val; omega
  | ⟨1, _⟩ => show win0_2.index t (1 : Fin 2) * 128 + 1 * c.val = c.val; omega

/-- What point `t` writes back is block `t` of the dense product of the operand arrays as the region finds them. -/
theorem flushed_eq (c : Dev nD) (t : Fin cfg0.N) :
    (dat0 V c).flushed 2 t = ((cfg0.win 2).blk t).view.read (Elt Ideal) (dense (V c main_arg0) (V c main_arg2)) := by
  show (cfg0.win 2).cut (grid0.coords t) ((dat0 V c).after 2 t) = _
  rw [after0_2]
  unfold out0_2
  rw [View.canon_unit_zero hz]
  simp only [View.ld_unit_zero (S := S10000x256) hz, View.ld_unit_zero (S := S256x128) hz]
  rw [k0_pay1_eq]
  funext j
  obtain ⟨r, cc, rfl⟩ : ∃ (r : Fin 10000) (cc : Fin 128), j = ix2 r cc := ⟨j 0, j 1, eq_ix2 j⟩
  show dense (iblk0 V c 0 t) (iblk0 V c 1 t) (ix2 r cc) = dense (V c main_arg0) (V c main_arg2) (((cfg0.win 2).blk t).view.emb (ix2 r cc))
  rw [emb_2]
  refine dense_rows (rowOf t) (V c main_arg0) (V c main_arg2) (iblk0 V c 1 t) (iblk0 V c 0 t) (fun r q => ?_) (fun q c' => ?_) r cc
  · show V c main_arg0 (((cfg0.win 0).blk t).view.emb (ix2 r q)) = _
    rw [emb_0]
  · show V c main_arg2 (((cfg0.win 1).blk t).view.emb (ix2 q c')) = _
    rw [emb_1]

/-- An index of the output is in point `t`'s block iff its row is one of the block's rows. -/
theorem mem_blk (t : Fin cfg0.N) (i : S100000x128.Idx) :
    i ∈ ((cfg0.win 2).blk t).view.set ↔ ∀ a : Fin 2, win0_2.index t a * S10000x128.size a ≤ (i a).val ∧ (i a).val < win0_2.index t a * S10000x128.size a + S10000x128.size a := by
  show i ∈ ((View.whole main_v28).slice (win0_2.rect t)).set ↔ _
  rw [View.set_slice_whole, Rect.mem_set_unit]
  exact Iff.rfl

/-- The ten blocks of rows cover the output: row `ρ` is in block `ρ / 10000`. -/
theorem cover (i : S100000x128.Idx) : ∃ t : Fin cfg0.N, (cfg0.win 2).flush t = true ∧ i ∈ ((cfg0.win 2).blk t).view.set := by
  have hi0 : (i 0).val < 100000 := (i 0).isLt
  have hi1 : (i 1).val < 128 := (i 1).isLt
  refine ⟨⟨(i 0).val / 10000, by have h : cfg0.N = 10 := N_0; omega⟩, flush0_2 _, ?_⟩
  rw [mem_blk]
  obtain ⟨-, -, -, -, e0, e1⟩ := idx_facts ⟨(i 0).val / 10000, by have h : cfg0.N = 10 := N_0; omega⟩
  intro a
  match a with
  | ⟨0, _⟩ =>
    show win0_2.index _ (0 : Fin 2) * 10000 ≤ (i 0).val ∧ (i 0).val < win0_2.index _ (0 : Fin 2) * 10000 + 10000
    rw [e0]; show (i 0).val / 10000 * 10000 ≤ (i 0).val ∧ (i 0).val < (i 0).val / 10000 * 10000 + 10000; omega
  | ⟨1, _⟩ =>
    show win0_2.index _ (1 : Fin 2) * 128 ≤ (i 1).val ∧ (i 1).val < win0_2.index _ (1 : Fin 2) * 128 + 128
    rw [e1]; omega

/-- The output array after the region: the dense product of the two operand arrays as the region finds them. -/
theorem final (c : Dev nD) : (dat0 V c).arrAt 2 cfg0.N = dense (V c main_arg0) (V c main_arg2) :=
  (dat0 V c).arrAt_eq_of_cover 2 _ (fun t _ => flushed_eq V c t) cover

end Cert.Gcn.Region0

end
-- ==== Proof.Region1.lean ====
/-
  The first row-wise region, whole: its output array after the run is the positive part of the neighbourhood sum plus the
  scaled product rows plus the bias, as a function of its four operand arrays as the region finds them.

  The grid has ten points; point `t` loads rows `10000 t … 10000 t + 9999` of the neighbourhood sum, of the product and of
  the coefficient column, and the whole bias row, and writes back the same rows of the output. The function is computed
  row by row, so what a point writes back is those rows of the function of the whole arrays; the ten blocks of rows
  cover the output.
-/
import proofs.«123945_j62423054680283_2_alg».proof.Proof.Gen.KernelIdeal.Frame
import proofs.«123945_j62423054680283_2_alg».proof.Proof.Payload
import proofs.«123945_j62423054680283_2_alg».proof.Proof.BlockLaws

set_option maxRecDepth 16384

noncomputable section

namespace Cert.Gcn.Region1

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Gcn

variable (V : (c : Dev nD) → (b : Ref sig .tc) → Buf (Elt Ideal) ((c : Thread nD τ).loc b))

theorem hz : (![0, 0] : Fin 2 → Nat) = fun _ => 0 := funext fun a => by fin_cases a <;> rfl

/-- Row `r` of point `t`'s blocks is row `10000 t + r` of the arrays. -/
def rowOf (t : Fin cfg1.N) (r : Fin 10000) : Fin 100000 :=
  ⟨t.val * 10000 + r.val, by have := t.isLt; have h : cfg1.N = 10 := N_1; have := r.isLt; omega⟩

/-- The printed index maps over the grid: a row-blocked window is at block row `t`, block column 0; a window on a whole
    small array stays at block (0, 0). -/
theorem idx_facts : ∀ t : Fin cfg1.N, win1_0.index t (0 : Fin 2) = t.val
    ∧ win1_0.index t (1 : Fin 2) = 0
    ∧ win1_1.index t (0 : Fin 2) = t.val
    ∧ win1_1.index t (1 : Fin 2) = 0
    ∧ win1_2.index t (0 : Fin 2) = t.val
    ∧ win1_2.index t (1 : Fin 2) = 0
    ∧ win1_3.index t (0 : Fin 2) = 0
    ∧ win1_3.index t (1 : Fin 2) = 0
    ∧ win1_4.index t (0 : Fin 2) = t.val
    ∧ win1_4.index t (1 : Fin 2) = 0 :=
  (by decide +kernel : ∀ t : Fin grid1.N, _)

theorem emb_0 (t : Fin cfg1.N) (r : Fin 10000) (q : Fin 128) :
    ((cfg1.win 0).blk t).view.emb (ix2 r q) = ix2 (rowOf t r) q := by
  obtain ⟨e0, e1, -, -, -, -, -, -, -, -⟩ := idx_facts t
  funext a; apply Fin.ext
  match a with
  | ⟨0, _⟩ => show win1_0.index t (0 : Fin 2) * 10000 + 1 * r.val = t.val * 10000 + r.val; omega
  | ⟨1, _⟩ => show win1_0.index t (1 : Fin 2) * 128 + 1 * q.val = q.val; omega

theorem emb_1 (t : Fin cfg1.N) (r : Fin 10000) (q : Fin 128) :
    ((cfg1.win 1).blk t).view.emb (ix2 r q) = ix2 (rowOf t r) q := by
  obtain ⟨-, -, e0, e1, -, -, -, -, -, -⟩ := idx_facts t
  funext a; apply Fin.ext
  match a with
  | ⟨0, _⟩ => show win1_1.index t (0 : Fin 2) * 10000 + 1 * r.val = t.val * 10000 + r.val; omega
  | ⟨1, _⟩ => show win1_1.index t (1 : Fin 2) * 128 + 1 * q.val = q.val; omega

theorem emb_2 (t : Fin cfg1.N) (r : Fin 10000) (q : Fin 1) :
    ((cfg1.win 2).blk t).view.emb (ix2 r q) = ix2 (rowOf t r) q := by
  obtain ⟨-, -, -, -, e0, e1, -, -, -, -⟩ := idx_facts t
  funext a; apply Fin.ext
  match a with
  | ⟨0, _⟩ => show win1_2.index t (0 : Fin 2) * 10000 + 1 * r.val = t.val * 10000 + r.val; omega
  | ⟨1, _⟩ => show win1_2.index t (1 : Fin 2) * 1 + 1 * q.val = q.val; omega

theorem emb_3 (t : Fin cfg1.N) (u : Fin 1) (q : Fin 128) :
    ((cfg1.win 3).blk t).view.emb (ix2 u q) = ix2 u q := by
  obtain ⟨-, -, -, -, -, -, e0, e1, -, -⟩ := idx_facts t
  funext a; apply Fin.ext
  match a with
  | ⟨0, _⟩ => show win1_3.index t (0 : Fin 2) * 1 + 1 * u.val = u.val; omega
  | ⟨1, _⟩ => show win1_3.index t (1 : Fin 2) * 128 + 1 * q.val = q.val; omega

theorem emb_4 (t : Fin cfg1.N) (r : Fin 10000) (q : Fin 128) :
    ((cfg1.win 4).blk t).view.emb (ix2 r q) = ix2 (rowOf t r) q := by
  obtain ⟨-, -, -, -, -, -, -, -, e0, e1⟩ := idx_facts t
  funext a; apply Fin.ext
  match a with
  | ⟨0, _⟩ => show win1_4.index t (0 : Fin 2) * 10000 + 1 * r.val = t.val * 10000 + r.val; omega
  | ⟨1, _⟩ => show win1_4.index t (1 : Fin 2) * 128 + 1 * q.val = q.val; omega

/-- What point `t` writes back is block `t` of the region's function of the operand arrays as the region finds them. -/
theorem flushed_eq (c : Dev nD) (t : Fin cfg1.N) :
    (dat1 V c).flushed 4 t = ((cfg1.win 4).blk t).view.read (Elt Ideal) (positivePart zeroWord (pre (V c main_v41) (V c main_v28) (V c main_v27) (V c main_v42))) := by
  show (cfg1.win 4).cut (grid1.coords t) ((dat1 V c).after 4 t) = _
  rw [after1_4]
  unfold out1_4
  rw [View.canon_unit_zero hz]
  simp only [View.ld_unit_zero (S := S10000x128) hz, View.ld_unit_zero (S := S10000x1) hz, View.ld_unit_zero (S := S1x128) hz]
  rw [k1_pay1_eq]
  funext j
  obtain ⟨r, cc, rfl⟩ : ∃ (r : Fin 10000) (cc : Fin 128), j = ix2 r cc := ⟨j 0, j 1, eq_ix2 j⟩
  show positivePart zeroWord (pre (iblk1 V c 0 t) (iblk1 V c 1 t) (iblk1 V c 2 t) (iblk1 V c 3 t)) (ix2 r cc) = (positivePart zeroWord (pre (V c main_v41) (V c main_v28) (V c main_v27) (V c main_v42))) (((cfg1.win 4).blk t).view.emb (ix2 r cc))
  rw [emb_4]
  refine positivePart_rows (rowOf t) _ _ _ (fun r q => ?_) r cc
  refine pre_rows (rowOf t) (V c main_v41) (V c main_v28) (V c main_v27) (V c main_v42) (iblk1 V c 3 t) (iblk1 V c 0 t) (iblk1 V c 1 t) (iblk1 V c 2 t)
    (fun r q => ?_) (fun r q => ?_) (fun r q => ?_) (fun u q => ?_) r q
  · show V c main_v41 (((cfg1.win 0).blk t).view.emb (ix2 r q)) = _
    rw [emb_0]
  · show V c main_v28 (((cfg1.win 1).blk t).view.emb (ix2 r q)) = _
    rw [emb_1]
  · show V c main_v27 (((cfg1.win 2).blk t).view.emb (ix2 r q)) = _
    rw [emb_2]
  · show V c main_v42 (((cfg1.win 3).blk t).view.emb (ix2 u q)) = _
    rw [emb_3]

/-- An index of the output is in point `t`'s block iff its row is one of the block's rows. -/
theorem mem_blk (t : Fin cfg1.N) (i : S100000x128.Idx) :
    i ∈ ((cfg1.win 4).blk t).view.set ↔ ∀ a : Fin 2, win1_4.index t a * S10000x128.size a ≤ (i a).val ∧ (i a).val < win1_4.index t a * S10000x128.size a + S10000x128.size a := by
  show i ∈ ((View.whole main_v43).slice (win1_4.rect t)).set ↔ _
  rw [View.set_slice_whole, Rect.mem_set_unit]
  exact Iff.rfl

/-- The ten blocks of rows cover the output: row `ρ` is in block `ρ / 10000`. -/
theorem cover (i : S100000x128.Idx) : ∃ t : Fin cfg1.N, (cfg1.win 4).flush t = true ∧ i ∈ ((cfg1.win 4).blk t).view.set := by
  have hi0 : (i 0).val < 100000 := (i 0).isLt
  have hi1 : (i 1).val < 128 := (i 1).isLt
  refine ⟨⟨(i 0).val / 10000, by have h : cfg1.N = 10 := N_1; omega⟩, flush1_4 _, ?_⟩
  rw [mem_blk]
  obtain ⟨-, -, -, -, -, -, -, -, e0, e1⟩ := idx_facts ⟨(i 0).val / 10000, by have h : cfg1.N = 10 := N_1; omega⟩
  intro a
  match a with
  | ⟨0, _⟩ =>
    show win1_4.index _ (0 : Fin 2) * 10000 ≤ (i 0).val ∧ (i 0).val < win1_4.index _ (0 : Fin 2) * 10000 + 10000
    rw [e0]; show (i 0).val / 10000 * 10000 ≤ (i 0).val ∧ (i 0).val < (i 0).val / 10000 * 10000 + 10000; omega
  | ⟨1, _⟩ =>
    show win1_4.index _ (1 : Fin 2) * 128 ≤ (i 1).val ∧ (i 1).val < win1_4.index _ (1 : Fin 2) * 128 + 128
    rw [e1]; omega

/-- The output array after the region: the region's function of the operand arrays as the region finds them. -/
theorem final (c : Dev nD) : (dat1 V c).arrAt 4 cfg1.N = positivePart zeroWord (pre (V c main_v41) (V c main_v28) (V c main_v27) (V c main_v42)) :=
  (dat1 V c).arrAt_eq_of_cover 4 _ (fun t _ => flushed_eq V c t) cover

end Cert.Gcn.Region1

end
-- ==== Proof.Region2.lean ====
/-
  The second matrix region, whole: its output array after the run is the dense product of its two operand arrays as the
  region finds them.

  The grid has ten points; point `t` loads rows `10000 t … 10000 t + 9999` of the left operand and the whole right operand,
  and writes back the same rows of the output. What it writes back is the dense product of the loaded blocks, which is
  those rows of the dense product of the whole arrays; the ten blocks of rows cover the output.
-/
import proofs.«123945_j62423054680283_2_alg».proof.Proof.Gen.KernelIdeal.Frame
import proofs.«123945_j62423054680283_2_alg».proof.Proof.Payload
import proofs.«123945_j62423054680283_2_alg».proof.Proof.BlockLaws

set_option maxRecDepth 16384

noncomputable section

namespace Cert.Gcn.Region2

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Gcn

variable (V : (c : Dev nD) → (b : Ref sig .tc) → Buf (Elt Ideal) ((c : Thread nD τ).loc b))

theorem hz : (![0, 0] : Fin 2 → Nat) = fun _ => 0 := funext fun a => by fin_cases a <;> rfl

/-- Row `r` of point `t`'s blocks is row `10000 t + r` of the arrays. -/
def rowOf (t : Fin cfg2.N) (r : Fin 10000) : Fin 100000 :=
  ⟨t.val * 10000 + r.val, by have := t.isLt; have h : cfg2.N = 10 := N_2; have := r.isLt; omega⟩

/-- The printed index maps over the grid: a row-blocked window is at block row `t`, block column 0; a window on a whole
    small array stays at block (0, 0). -/
theorem idx_facts : ∀ t : Fin cfg2.N, win2_0.index t (0 : Fin 2) = t.val
    ∧ win2_0.index t (1 : Fin 2) = 0
    ∧ win2_1.index t (0 : Fin 2) = 0
    ∧ win2_1.index t (1 : Fin 2) = 0
    ∧ win2_2.index t (0 : Fin 2) = t.val
    ∧ win2_2.index t (1 : Fin 2) = 0 :=
  (by decide +kernel : ∀ t : Fin grid2.N, _)

theorem emb_0 (t : Fin cfg2.N) (r : Fin 10000) (q : Fin 128) :
    ((cfg2.win 0).blk t).view.emb (ix2 r q) = ix2 (rowOf t r) q := by
  obtain ⟨e0, e1, -, -, -, -⟩ := idx_facts t
  funext a; apply Fin.ext
  match a with
  | ⟨0, _⟩ => show win2_0.index t (0 : Fin 2) * 10000 + 1 * r.val = t.val * 10000 + r.val; omega
  | ⟨1, _⟩ => show win2_0.index t (1 : Fin 2) * 128 + 1 * q.val = q.val; omega

theorem emb_1 (t : Fin cfg2.N) (u : Fin 128) (q : Fin 64) :
    ((cfg2.win 1).blk t).view.emb (ix2 u q) = ix2 u q := by
  obtain ⟨-, -, e0, e1, -, -⟩ := idx_facts t
  funext a; apply Fin.ext
  match a with
  | ⟨0, _⟩ => show win2_1.index t (0 : Fin 2) * 128 + 1 * u.val = u.val; omega
  | ⟨1, _⟩ => show win2_1.index t (1 : Fin 2) * 64 + 1 * q.val = q.val; omega

theorem emb_2 (t : Fin cfg2.N) (r : Fin 10000) (q : Fin 64) :
    ((cfg2.win 2).blk t).view.emb (ix2 r q) = ix2 (rowOf t r) q := by
  obtain ⟨-, -, -, -, e0, e1⟩ := idx_facts t
  funext a; apply Fin.ext
  match a with
  | ⟨0, _⟩ => show win2_2.index t (0 : Fin 2) * 10000 + 1 * r.val = t.val * 10000 + r.val; omega
  | ⟨1, _⟩ => show win2_2.index t (1 : Fin 2) * 64 + 1 * q.val = q.val; omega

/-- What point `t` writes back is block `t` of the region's function of the operand arrays as the region finds them. -/
theorem flushed_eq (c : Dev nD) (t : Fin cfg2.N) :
    (dat2 V c).flushed 2 t = ((cfg2.win 2).blk t).view.read (Elt Ideal) (dense (V c main_v43) (V c main_arg4)) := by
  show (cfg2.win 2).cut (grid2.coords t) ((dat2 V c).after 2 t) = _
  rw [after2_2]
  unfold out2_2
  rw [View.canon_unit_zero hz]
  simp only [View.ld_unit_zero (S := S10000x128) hz, View.ld_unit_zero (S := S128x64) hz]
  rw [k2_pay1_eq]
  funext j
  obtain ⟨r, cc, rfl⟩ : ∃ (r : Fin 10000) (cc : Fin 64), j = ix2 r cc := ⟨j 0, j 1, eq_ix2 j⟩
  show dense (iblk2 V c 0 t) (iblk2 V c 1 t) (ix2 r cc) = (dense (V c main_v43) (V c main_arg4)) (((cfg2.win 2).blk t).view.emb (ix2 r cc))
  rw [emb_2]
  refine dense_rows (rowOf t) (V c main_v43) (V c main_arg4) (iblk2 V c 1 t) (iblk2 V c 0 t) (fun r q => ?_) (fun u q => ?_) r cc
  · show V c main_v43 (((cfg2.win 0).blk t).view.emb (ix2 r q)) = _
    rw [emb_0]
  · show V c main_arg4 (((cfg2.win 1).blk t).view.emb (ix2 u q)) = _
    rw [emb_1]

/-- An index of the output is in point `t`'s block iff its row is one of the block's rows. -/
theorem mem_blk (t : Fin cfg2.N) (i : S100000x64.Idx) :
    i ∈ ((cfg2.win 2).blk t).view.set ↔ ∀ a : Fin 2, win2_2.index t a * S10000x64.size a ≤ (i a).val ∧ (i a).val < win2_2.index t a * S10000x64.size a + S10000x64.size a := by
  show i ∈ ((View.whole main_v44).slice (win2_2.rect t)).set ↔ _
  rw [View.set_slice_whole, Rect.mem_set_unit]
  exact Iff.rfl

/-- The ten blocks of rows cover the output: row `ρ` is in block `ρ / 10000`. -/
theorem cover (i : S100000x64.Idx) : ∃ t : Fin cfg2.N, (cfg2.win 2).flush t = true ∧ i ∈ ((cfg2.win 2).blk t).view.set := by
  have hi0 : (i 0).val < 100000 := (i 0).isLt
  have hi1 : (i 1).val < 64 := (i 1).isLt
  refine ⟨⟨(i 0).val / 10000, by have h : cfg2.N = 10 := N_2; omega⟩, flush2_2 _, ?_⟩
  rw [mem_blk]
  obtain ⟨-, -, -, -, e0, e1⟩ := idx_facts ⟨(i 0).val / 10000, by have h : cfg2.N = 10 := N_2; omega⟩
  intro a
  match a with
  | ⟨0, _⟩ =>
    show win2_2.index _ (0 : Fin 2) * 10000 ≤ (i 0).val ∧ (i 0).val < win2_2.index _ (0 : Fin 2) * 10000 + 10000
    rw [e0]; show (i 0).val / 10000 * 10000 ≤ (i 0).val ∧ (i 0).val < (i 0).val / 10000 * 10000 + 10000; omega
  | ⟨1, _⟩ =>
    show win2_2.index _ (1 : Fin 2) * 64 ≤ (i 1).val ∧ (i 1).val < win2_2.index _ (1 : Fin 2) * 64 + 64
    rw [e1]; omega

/-- The output array after the region: the region's function of the operand arrays as the region finds them. -/
theorem final (c : Dev nD) : (dat2 V c).arrAt 2 cfg2.N = dense (V c main_v43) (V c main_arg4) :=
  (dat2 V c).arrAt_eq_of_cover 2 _ (fun t _ => flushed_eq V c t) cover

end Cert.Gcn.Region2

end
-- ==== Proof.Region3.lean ====
/-
  The second row-wise region, whole: its output array after the run is the logarithm of the softmax, along each row, of the
  neighbourhood sum plus the scaled product rows plus the bias, as a function of its four operand arrays as the region
  finds them.

  The grid has ten points; point `t` loads rows `10000 t … 10000 t + 9999` of the neighbourhood sum, of the product and of
  the coefficient column, and the whole bias row, and writes back the same rows of the output. A row of the result
  depends on the same row of the operands only (the row's maximum and the row's sum run along the row, which a block
  holds whole), so what a point writes back is those rows of the function of the whole arrays; the ten blocks of rows
  cover the output.
-/
import proofs.«123945_j62423054680283_2_alg».proof.Proof.Gen.KernelIdeal.Frame
import proofs.«123945_j62423054680283_2_alg».proof.Proof.Payload
import proofs.«123945_j62423054680283_2_alg».proof.Proof.BlockLaws

set_option maxRecDepth 16384

noncomputable section

namespace Cert.Gcn.Region3

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Gcn

variable (V : (c : Dev nD) → (b : Ref sig .tc) → Buf (Elt Ideal) ((c : Thread nD τ).loc b))

theorem hz : (![0, 0] : Fin 2 → Nat) = fun _ => 0 := funext fun a => by fin_cases a <;> rfl

/-- Row `r` of point `t`'s blocks is row `10000 t + r` of the arrays. -/
def rowOf (t : Fin cfg3.N) (r : Fin 10000) : Fin 100000 :=
  ⟨t.val * 10000 + r.val, by have := t.isLt; have h : cfg3.N = 10 := N_3; have := r.isLt; omega⟩

/-- The printed index maps over the grid: a row-blocked window is at block row `t`, block column 0; a window on a whole
    small array stays at block (0, 0). -/
theorem idx_facts : ∀ t : Fin cfg3.N, win3_0.index t (0 : Fin 2) = t.val
    ∧ win3_0.index t (1 : Fin 2) = 0
    ∧ win3_1.index t (0 : Fin 2) = t.val
    ∧ win3_1.index t (1 : Fin 2) = 0
    ∧ win3_2.index t (0 : Fin 2) = t.val
    ∧ win3_2.index t (1 : Fin 2) = 0
    ∧ win3_3.index t (0 : Fin 2) = 0
    ∧ win3_3.index t (1 : Fin 2) = 0
    ∧ win3_4.index t (0 : Fin 2) = t.val
    ∧ win3_4.index t (1 : Fin 2) = 0 :=
  (by decide +kernel : ∀ t : Fin grid3.N, _)

theorem emb_0 (t : Fin cfg3.N) (r : Fin 10000) (q : Fin 64) :
    ((cfg3.win 0).blk t).view.emb (ix2 r q) = ix2 (rowOf t r) q := by
  obtain ⟨e0, e1, -, -, -, -, -, -, -, -⟩ := idx_facts t
  funext a; apply Fin.ext
  match a with
  | ⟨0, _⟩ => show win3_0.index t (0 : Fin 2) * 10000 + 1 * r.val = t.val * 10000 + r.val; omega
  | ⟨1, _⟩ => show win3_0.index t (1 : Fin 2) * 64 + 1 * q.val = q.val; omega

theorem emb_1 (t : Fin cfg3.N) (r : Fin 10000) (q : Fin 64) :
    ((cfg3.win 1).blk t).view.emb (ix2 r q) = ix2 (rowOf t r) q := by
  obtain ⟨-, -, e0, e1, -, -, -, -, -, -⟩ := idx_facts t
  funext a; apply Fin.ext
  match a with
  | ⟨0, _⟩ => show win3_1.index t (0 : Fin 2) * 10000 + 1 * r.val = t.val * 10000 + r.val; omega
  | ⟨1, _⟩ => show win3_1.index t (1 : Fin 2) * 64 + 1 * q.val = q.val; omega

theorem emb_2 (t : Fin cfg3.N) (r : Fin 10000) (q : Fin 1) :
    ((cfg3.win 2).blk t).view.emb (ix2 r q) = ix2 (rowOf t r) q := by
  obtain ⟨-, -, -, -, e0, e1, -, -, -, -⟩ := idx_facts t
  funext a; apply Fin.ext
  match a with
  | ⟨0, _⟩ => show win3_2.index t (0 : Fin 2) * 10000 + 1 * r.val = t.val * 10000 + r.val; omega
  | ⟨1, _⟩ => show win3_2.index t (1 : Fin 2) * 1 + 1 * q.val = q.val; omega

theorem emb_3 (t : Fin cfg3.N) (u : Fin 1) (q : Fin 64) :
    ((cfg3.win 3).blk t).view.emb (ix2 u q) = ix2 u q := by
  obtain ⟨-, -, -, -, -, -, e0, e1, -, -⟩ := idx_facts t
  funext a; apply Fin.ext
  match a with
  | ⟨0, _⟩ => show win3_3.index t (0 : Fin 2) * 1 + 1 * u.val = u.val; omega
  | ⟨1, _⟩ => show win3_3.index t (1 : Fin 2) * 64 + 1 * q.val = q.val; omega

theorem emb_4 (t : Fin cfg3.N) (r : Fin 10000) (q : Fin 64) :
    ((cfg3.win 4).blk t).view.emb (ix2 r q) = ix2 (rowOf t r) q := by
  obtain ⟨-, -, -, -, -, -, -, -, e0, e1⟩ := idx_facts t
  funext a; apply Fin.ext
  match a with
  | ⟨0, _⟩ => show win3_4.index t (0 : Fin 2) * 10000 + 1 * r.val = t.val * 10000 + r.val; omega
  | ⟨1, _⟩ => show win3_4.index t (1 : Fin 2) * 64 + 1 * q.val = q.val; omega

/-- What point `t` writes back is block `t` of the region's function of the operand arrays as the region finds them. -/
theorem flushed_eq (c : Dev nD) (t : Fin cfg3.N) :
    (dat3 V c).flushed 4 t = ((cfg3.win 4).blk t).view.read (Elt Ideal) (logSoftmax botWord (pre (V c main_v57) (V c main_v44) (V c main_v27) (V c main_v58))) := by
  show (cfg3.win 4).cut (grid3.coords t) ((dat3 V c).after 4 t) = _
  rw [after3_4]
  unfold out3_4
  rw [View.canon_unit_zero hz]
  simp only [View.ld_unit_zero (S := S10000x64) hz, View.ld_unit_zero (S := S10000x1) hz, View.ld_unit_zero (S := S1x64) hz]
  rw [k3_pay1_eq]
  funext j
  obtain ⟨r, cc, rfl⟩ : ∃ (r : Fin 10000) (cc : Fin 64), j = ix2 r cc := ⟨j 0, j 1, eq_ix2 j⟩
  show logSoftmax botWord (pre (iblk3 V c 0 t) (iblk3 V c 1 t) (iblk3 V c 2 t) (iblk3 V c 3 t)) (ix2 r cc) = (logSoftmax botWord (pre (V c main_v57) (V c main_v44) (V c main_v27) (V c main_v58))) (((cfg3.win 4).blk t).view.emb (ix2 r cc))
  rw [emb_4]
  refine logSoftmax_rows (rowOf t) _ _ _ (fun r q => ?_) r cc
  refine pre_rows (rowOf t) (V c main_v57) (V c main_v44) (V c main_v27) (V c main_v58) (iblk3 V c 3 t) (iblk3 V c 0 t) (iblk3 V c 1 t) (iblk3 V c 2 t)
    (fun r q => ?_) (fun r q => ?_) (fun r q => ?_) (fun u q => ?_) r q
  · show V c main_v57 (((cfg3.win 0).blk t).view.emb (ix2 r q)) = _
    rw [emb_0]
  · show V c main_v44 (((cfg3.win 1).blk t).view.emb (ix2 r q)) = _
    rw [emb_1]
  · show V c main_v27 (((cfg3.win 2).blk t).view.emb (ix2 r q)) = _
    rw [emb_2]
  · show V c main_v58 (((cfg3.win 3).blk t).view.emb (ix2 u q)) = _
    rw [emb_3]

/-- An index of the output is in point `t`'s block iff its row is one of the block's rows. -/
theorem mem_blk (t : Fin cfg3.N) (i : S100000x64.Idx) :
    i ∈ ((cfg3.win 4).blk t).view.set ↔ ∀ a : Fin 2, win3_4.index t a * S10000x64.size a ≤ (i a).val ∧ (i a).val < win3_4.index t a * S10000x64.size a + S10000x64.size a := by
  show i ∈ ((View.whole main_v59).slice (win3_4.rect t)).set ↔ _
  rw [View.set_slice_whole, Rect.mem_set_unit]
  exact Iff.rfl

/-- The ten blocks of rows cover the output: row `ρ` is in block `ρ / 10000`. -/
theorem cover (i : S100000x64.Idx) : ∃ t : Fin cfg3.N, (cfg3.win 4).flush t = true ∧ i ∈ ((cfg3.win 4).blk t).view.set := by
  have hi0 : (i 0).val < 100000 := (i 0).isLt
  have hi1 : (i 1).val < 64 := (i 1).isLt
  refine ⟨⟨(i 0).val / 10000, by have h : cfg3.N = 10 := N_3; omega⟩, flush3_4 _, ?_⟩
  rw [mem_blk]
  obtain ⟨-, -, -, -, -, -, -, -, e0, e1⟩ := idx_facts ⟨(i 0).val / 10000, by have h : cfg3.N = 10 := N_3; omega⟩
  intro a
  match a with
  | ⟨0, _⟩ =>
    show win3_4.index _ (0 : Fin 2) * 10000 ≤ (i 0).val ∧ (i 0).val < win3_4.index _ (0 : Fin 2) * 10000 + 10000
    rw [e0]; show (i 0).val / 10000 * 10000 ≤ (i 0).val ∧ (i 0).val < (i 0).val / 10000 * 10000 + 10000; omega
  | ⟨1, _⟩ =>
    show win3_4.index _ (1 : Fin 2) * 64 ≤ (i 1).val ∧ (i 1).val < win3_4.index _ (1 : Fin 2) * 64 + 64
    rw [e1]; omega

/-- The output array after the region: the region's function of the operand arrays as the region finds them. -/
theorem final (c : Dev nD) : (dat3 V c).arrAt 4 cfg3.N = logSoftmax botWord (pre (V c main_v57) (V c main_v44) (V c main_v27) (V c main_v58)) :=
  (dat3 V c).arrAt_eq_of_cover 4 _ (fun t _ => flushed_eq V c t) cover

end Cert.Gcn.Region3

end
-- ==== Proof.LibHostRowMax.lean ====
/-
  A host reduction by maximum along the rows of a matrix, read at a row.

  For any extents: the one-operand host reduction of an `[n, d]` array along its second axis with the maximum as its body
  is, at row `p`, the fold of the maximum from the initial value over the row's `d` entries.
-/
import Idealize.ShloMosaic.PureOps.Ideal.Laws
import Idealize.ShloMosaic.PureOps.Reduce
import Idealize.ShloMosaic.Lib.ValueIdx

noncomputable section

namespace Cert.LibHostRowMax

open Idealize.ShloMosaic Idealize.ShloMosaic.ValueIdx

/-- Row `p` with the column coordinate `k` inserted is the entry `(p, k)`. -/
theorem lift_row {n d : ℕ} (hR : (⟨2, ![n, d]⟩ : Shape).Reduces [1] ⟨1, ![n]⟩) (p : Fin n) (k : Fin d) :
    hR.lift (ix1 p) k = ix2 p k := by
  funext a
  match a with
  | ⟨0, _⟩ => rfl
  | ⟨1, _⟩ => rfl

/-- The host's row maximum at row `p`: the fold of the maximum over the row from the initial value. -/
theorem reduce_max_row {n d : ℕ} {u : Shape} (A : (⟨2, ![n, d]⟩ : Shape).Idx → EReal) (init : u.Idx → EReal)
    (h' : (⟨2, ![n, d]⟩ : Shape).ReducesTo [1] ⟨1, ![n]⟩) (hR : (⟨2, ![n, d]⟩ : Shape).Reduces [1] ⟨1, ![n]⟩)
    (hu : 0 < u.numel) (p : Fin n) :
    Host.reduce (FloatOps.maximumf (F := Ideal) (φ := .f32)) A init h' hu (ix1 p)
      = (Finset.univ : Finset (Fin d)).fold max (init (Shape.Idx.first hu)) fun k => A (ix2 p k) := by
  refine (Host.reduce_eq_fold_single (α := Ideal .f32) FloatOps.maximumf A init h' hR hu (ix1 p)).trans ?_
  refine congrArg (Finset.fold max (init (Shape.Idx.first hu)) · Finset.univ) ?_
  funext k
  exact congrArg A (lift_row hR p k)

end Cert.LibHostRowMax

end
-- ==== Proof.RefStages.lean ====
/-
  The reference's stages as the whole-array functions.

  Read one operation at a time, the reference computes: the dense product of the features with the first weights; the
  first layer's sum (neighbourhood sum, plus the product rows scaled by the nodes' squared inverse root degrees spread
  along the rows, plus the bias spread down the rows) and its positive part; the dense product with the second weights;
  the second layer's sum, and the logarithm of its softmax along each row. The row maximum is taken from minus infinity
  and then once more against minus infinity, which changes nothing; the row sum starts from zero.
-/
import proofs.«123945_j62423054680283_2_alg».proof.Proof.RefRead
import proofs.«123945_j62423054680283_2_alg».proof.Proof.Spec
import proofs.«123945_j62423054680283_2_alg».proof.Proof.Payload
import Idealize.ShloMosaic.PureOps.Ideal.Laws
import Idealize.ShloMosaic.Lib.IdealHost
import Mathlib.Data.Finset.Fold
import proofs.«123945_j62423054680283_2_alg».proof.Proof.LibHostRowMax

noncomputable section

namespace Cert.Gcn.RefStages

open Idealize.ShloMosaic Idealize.ShloMosaic.ValueIdx Cert.ReferenceIdeal Cert.ReferenceIdeal.ReadP Cert.Gcn

variable (x0 : (⟨S100000x256, .f32⟩ : BufTy).Contents (Elt Ideal)) (x1 : (⟨S2x1600000, .i32⟩ : BufTy).Contents (Elt Ideal))
  (x2 : (⟨S256x128, .f32⟩ : BufTy).Contents (Elt Ideal)) (x3 : (⟨S128, .f32⟩ : BufTy).Contents (Elt Ideal))
  (x4 : (⟨S128x64, .f32⟩ : BufTy).Contents (Elt Ideal)) (x5 : (⟨S64, .f32⟩ : BufTy).Contents (Elt Ideal))

/-- The first dense product. -/
theorem dense_v4 : dense x0 x2 = val_main_v4 (F := Ideal) x0 x2 := by
  funext i
  rw [val_main_v4_apply]
  unfold dense
  refine Finset.sum_congr rfl fun k _ => ?_
  have el : lidx_main_v4 i k = ix2 (i 0) k := funext fun a => by match a with | ⟨0, _⟩ => rfl | ⟨1, _⟩ => rfl
  have er : ridx_main_v4 i k = ix2 k (i 1) := funext fun a => by match a with | ⟨0, _⟩ => rfl | ⟨1, _⟩ => rfl
  exact congrArg₂ (· * ·) (congrArg _ el.symm) (congrArg _ er.symm)

/-- The second dense product. -/
theorem dense_v49 : dense (val_main_v48 (F := Ideal) x0 x1 x2 x3) x4 = val_main_v49 (F := Ideal) x0 x1 x2 x3 x4 := by
  funext i
  rw [val_main_v49_apply]
  unfold dense
  refine Finset.sum_congr rfl fun k _ => ?_
  have el : lidx_main_v49 i k = ix2 (i 0) k := funext fun a => by match a with | ⟨0, _⟩ => rfl | ⟨1, _⟩ => rfl
  have er : ridx_main_v49 i k = ix2 k (i 1) := funext fun a => by match a with | ⟨0, _⟩ => rfl | ⟨1, _⟩ => rfl
  exact congrArg₂ (· * ·) (congrArg _ el.symm) (congrArg _ er.symm)

/-- The first layer's sum, for a coefficient column and a bias row that read as the reference's. -/
theorem pre_v47 (col : Arr2 100000 1) (row : Arr2 1 128)
    (hcol : ∀ r : Fin 100000, col (ix2 r (0 : Fin 1)) = val_main_v40 (F := Ideal) x1 (ix1 r))
    (hrow : ∀ q : Fin 128, row (ix2 (0 : Fin 1) q) = x3 (ix1 q)) :
    pre (val_main_v39 (F := Ideal) x0 x1 x2) (val_main_v4 (F := Ideal) x0 x2) col row = val_main_v47 (F := Ideal) x0 x1 x2 x3 := by
  funext i
  obtain ⟨r, q, rfl⟩ : ∃ (r : Fin 100000) (q : Fin 128), i = ix2 r q := ⟨i 0, i 1, eq_ix2 i⟩
  rw [val_main_v47_apply, val_main_v44_apply, val_main_v43_apply, val_main_v42_apply, val_main_v41_apply, val_main_v46_apply,
    val_main_v45_apply]
  have e1 : idx_main_v41 (idx_main_v42 (ix2 r q)) = ix1 r := funext fun a => by match a with | ⟨0, _⟩ => rfl
  have e2 : idx_main_v45 (idx_main_v46 (ix2 r q)) = ix1 q := funext fun a => by match a with | ⟨0, _⟩ => rfl
  rw [e1, e2, ← hcol, ← hrow]
  rfl

/-- The first layer's output. -/
theorem positivePart_v48 : positivePart zeroWord (val_main_v47 (F := Ideal) x0 x1 x2 x3) = val_main_v48 (F := Ideal) x0 x1 x2 x3 := by
  funext i
  rw [val_main_v48_apply, val_main_call0_v0_apply, val_main_call0_cst_apply]
  rfl

/-- The second layer's sum, for a coefficient column and a bias row that read as the reference's. -/
theorem pre_v92 (col : Arr2 100000 1) (row : Arr2 1 64)
    (hcol : ∀ r : Fin 100000, col (ix2 r (0 : Fin 1)) = val_main_v85 (F := Ideal) x1 (ix1 r))
    (hrow : ∀ q : Fin 64, row (ix2 (0 : Fin 1) q) = x5 (ix1 q)) :
    pre (val_main_v84 (F := Ideal) x0 x1 x2 x3 x4) (val_main_v49 (F := Ideal) x0 x1 x2 x3 x4) col row
      = val_main_v92 (F := Ideal) x0 x1 x2 x3 x4 x5 := by
  funext i
  obtain ⟨r, q, rfl⟩ : ∃ (r : Fin 100000) (q : Fin 64), i = ix2 r q := ⟨i 0, i 1, eq_ix2 i⟩
  rw [val_main_v92_apply, val_main_v89_apply, val_main_v88_apply, val_main_v87_apply, val_main_v86_apply, val_main_v91_apply,
    val_main_v90_apply]
  have e1 : idx_main_v86 (idx_main_v87 (ix2 r q)) = ix1 r := funext fun a => by match a with | ⟨0, _⟩ => rfl
  have e2 : idx_main_v90 (idx_main_v91 (ix2 r q)) = ix1 q := funext fun a => by match a with | ⟨0, _⟩ => rfl
  rw [e1, e2, ← hcol, ← hrow]
  rfl

/-- The reference's row maximum: the fold of the maximum along the row from minus infinity, taken once more against minus
    infinity. -/
theorem rowMax_v2 (p : Fin 100000) :
    val_main_call1_v2 (F := Ideal) x0 x1 x2 x3 x4 x5 (ix1 p) = rowMax botWord (val_main_v92 (F := Ideal) x0 x1 x2 x3 x4 x5) p := by
  rw [val_main_call1_v2_apply, val_main_call1_v1_apply, val_main_call1_cst_0_apply]
  unfold val_main_call1_v0
  generalize val_main_v92 (F := Ideal) x0 x1 x2 x3 x4 x5 = A
  have hR : S100000x64.Reduces [1] S100000 := by decide
  refine (congrArg (FloatOps.maximumf (F := Ideal) (FloatOps.ofBits .f32 4286578688#32))
    (Cert.LibHostRowMax.reduce_max_row A (val_main_call1_cst (F := Ideal)) Gen.reducesTo_S100000x64_S100000_d1 hR Gen.h_S_ p)).trans ?_
  exact max_eq_right ((Finset.le_fold_max _).mpr (Or.inl le_rfl))

/-- The reference's shifted row: an entry minus its row's maximum. -/
theorem shifted_v5 (r : Fin 100000) (k : Fin 64) :
    val_main_call1_v5 (F := Ideal) x0 x1 x2 x3 x4 x5 (ix2 r k)
      = val_main_v92 (F := Ideal) x0 x1 x2 x3 x4 x5 (ix2 r k) - rowMax botWord (val_main_v92 (F := Ideal) x0 x1 x2 x3 x4 x5) r := by
  rw [val_main_call1_v5_apply, val_main_call1_v4_apply, val_main_call1_v3_apply]
  have e : idx_main_call1_v3 (idx_main_call1_v4 (ix2 r k)) = ix1 r := funext fun a => by match a with | ⟨0, _⟩ => rfl
  rw [e, rowMax_v2]
  generalize val_main_v92 (F := Ideal) x0 x1 x2 x3 x4 x5 = A
  rfl

/-- The reference's row sum of exponentials, from zero. -/
theorem rowSum_v7 (r : Fin 100000) :
    val_main_call1_v7 (F := Ideal) x0 x1 x2 x3 x4 x5 (ix1 r)
      = ∑ k : Fin 64, Ideal.exp (val_main_v92 (F := Ideal) x0 x1 x2 x3 x4 x5 (ix2 r k) - rowMax botWord (val_main_v92 (F := Ideal) x0 x1 x2 x3 x4 x5) r) := by
  rw [val_main_call1_v7_apply, val_main_call1_cst_1_apply]
  refine (congrArg (FloatOps.ofBits (F := Ideal) .f32 0x00000000#32 + ·) (Finset.sum_congr rfl fun k _ => ?_)).trans
    ((congrArg (· + _) Ideal.ofBits_zero_f32).trans (zero_add _))
  have e : idx_main_call1_v7 (ix1 r) k = ix2 r k := funext fun a => by match a with | ⟨0, _⟩ => rfl | ⟨1, _⟩ => rfl
  rw [e, val_main_call1_v6_apply, shifted_v5]
  generalize val_main_v92 (F := Ideal) x0 x1 x2 x3 x4 x5 = A
  exact Ideal.hostUnary_exp_def _

/-- The second layer's output: the logarithm of the softmax along each row of the layer's sum. -/
theorem logSoftmax_v93 : logSoftmax botWord (val_main_v92 (F := Ideal) x0 x1 x2 x3 x4 x5) = val_main_v93 (F := Ideal) x0 x1 x2 x3 x4 x5 := by
  funext i
  obtain ⟨r, q, rfl⟩ : ∃ (r : Fin 100000) (q : Fin 64), i = ix2 r q := ⟨i 0, i 1, eq_ix2 i⟩
  rw [val_main_v93_apply, val_main_call1_v10_apply, val_main_call1_v9_apply, val_main_call1_v8_apply]
  have e : idx_main_call1_v8 (idx_main_call1_v10 (ix2 r q)) = ix1 r := funext fun a => by match a with | ⟨0, _⟩ => rfl
  rw [e, rowSum_v7, shifted_v5]
  generalize val_main_v92 (F := Ideal) x0 x1 x2 x3 x4 x5 = A
  rfl

end Cert.Gcn.RefStages

end
-- ==== Proof.KValue.lean ====
/-
  The idealized kernel's result, as a function of its arguments.

  The fold through the program's segments is read one segment at a time. A stretch of host operations applies to the
  buffers the same operations the reference applies (the degree normalisation, the per-edge coefficients, the gathers
  along the edges and the scatter-adds onto the nodes); a region leaves in its output array the whole-array function of
  its operand arrays, which is the corresponding stage of the reference: the dense product, the positive part of the
  layer's sum, the dense product again, and the logarithm of the softmax of the second layer's sum.
-/
import proofs.«123945_j62423054680283_2_alg».proof.Proof.KRun
import proofs.«123945_j62423054680283_2_alg».proof.Proof.Region0
import proofs.«123945_j62423054680283_2_alg».proof.Proof.Region1
import proofs.«123945_j62423054680283_2_alg».proof.Proof.Region2
import proofs.«123945_j62423054680283_2_alg».proof.Proof.Region3
import proofs.«123945_j62423054680283_2_alg».proof.Proof.RefStages

set_option maxRecDepth 16384

noncomputable section

namespace Cert.Gcn.KValue

open Idealize.ShloMosaic Idealize.ShloMosaic.TcCoe Idealize.ShloMosaic.ValueIdx Idealize.SL.Sem
open Cert.KernelIdeal Cert.KernelIdeal.Gen Cert.Gcn
open Cert.ReferenceIdeal.ReadP

variable (m : (ℓ : Loc nD τ sig) → Buf (Elt Ideal) ℓ) (ρ : Dev nD → PrngReg) (c : Dev nD)

/-- A buffer that no operation of a stretch writes keeps its contents across the stretch. -/
local macro "kept_across" ops:ident : tactic => `(tactic| (
  refine StableHlo.after_of_forall_not_mem _ _ (List.forall_iff_forall_mem.mp ?_)
  simp only [$ops:ident, List.flatten_cons, List.flatten_nil, List.append_nil, List.cons_append,
    List.nil_append, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)))

/-! ## Before the first region -/

theorem W1_arg0 : W1 m ρ c (Proc.devRef .tc main_arg0) = (m ((c : Thread nD τ).loc main_arg0)) := by
  show StableHlo.after hostOps0 (W0 m ρ c) (Proc.devRef .tc main_arg0) = _
  kept_across hostOps0
theorem W1_arg2 : W1 m ρ c (Proc.devRef .tc main_arg2) = (m ((c : Thread nD τ).loc main_arg2)) := by
  show StableHlo.after hostOps0 (W0 m ρ c) (Proc.devRef .tc main_arg2) = _
  kept_across hostOps0

/-- The source endpoints of the edges. -/
theorem W1_v1 : W1 m ρ c (Proc.devRef .tc main_v1) = val_main_v1 (F := Ideal) (m ((c : Thread nD τ).loc main_arg1)) := by
  show StableHlo.after hostOps0 (W0 m ρ c) (Proc.devRef .tc main_v1) = _
  after_results_simp
  rfl
/-- The destination endpoints of the edges. -/
theorem W1_v3 : W1 m ρ c (Proc.devRef .tc main_v3) = val_main_v3 (F := Ideal) (m ((c : Thread nD τ).loc main_arg1)) := by
  show StableHlo.after hostOps0 (W0 m ρ c) (Proc.devRef .tc main_v3) = _
  after_results_simp
  rfl
/-- The per-edge coefficients: the product of the two endpoints' inverse root degrees. -/
theorem W1_v25 : W1 m ρ c (Proc.devRef .tc main_v25) = val_main_v26 (F := Ideal) (m ((c : Thread nD τ).loc main_arg1)) := by
  show StableHlo.after hostOps0 (W0 m ρ c) (Proc.devRef .tc main_v25) = _
  after_results_simp
  rfl
/-- The nodes' squared inverse root degrees, as a column. -/
theorem W1_v27 : W1 m ρ c (Proc.devRef .tc main_v27) = shapeCast S100000x1 (val_main_v40 (F := Ideal) (m ((c : Thread nD τ).loc main_arg1))) shapeCasts_S100000_S100000x1 := by
  show StableHlo.after hostOps0 (W0 m ρ c) (Proc.devRef .tc main_v27) = _
  after_results_simp
  rfl

theorem W1_arg3 : W1 m ρ c (Proc.devRef .tc main_arg3) = (m ((c : Thread nD τ).loc main_arg3)) := by
  show StableHlo.after hostOps0 (W0 m ρ c) (Proc.devRef .tc main_arg3) = _
  kept_across hostOps0
theorem W1_arg4 : W1 m ρ c (Proc.devRef .tc main_arg4) = (m ((c : Thread nD τ).loc main_arg4)) := by
  show StableHlo.after hostOps0 (W0 m ρ c) (Proc.devRef .tc main_arg4) = _
  kept_across hostOps0
theorem W1_arg5 : W1 m ρ c (Proc.devRef .tc main_arg5) = (m ((c : Thread nD τ).loc main_arg5)) := by
  show StableHlo.after hostOps0 (W0 m ρ c) (Proc.devRef .tc main_arg5) = _
  kept_across hostOps0

/-! ## The first region: the dense product with the first weights -/

theorem W2_v28 : W2 m ρ c (Proc.devRef .tc main_v28) = val_main_v4 (F := Ideal) (m ((c : Thread nD τ).loc main_arg0)) (m ((c : Thread nD τ).loc main_arg2)) := by
  refine (W2_arr m ρ c 2).trans ?_
  rw [Region0.final (V1 m ρ) c]
  show dense (W1 m ρ c (Proc.devRef .tc main_arg0)) (W1 m ρ c (Proc.devRef .tc main_arg2)) = _
  rw [W1_arg0, W1_arg2]
  exact RefStages.dense_v4 _ _

theorem W2_v1 : W2 m ρ c (Proc.devRef .tc main_v1) = val_main_v1 (F := Ideal) (m ((c : Thread nD τ).loc main_arg1)) :=
  (W2_of_ne m ρ c main_v1 (by decide)).trans (W1_v1 m ρ c)
theorem W2_v3 : W2 m ρ c (Proc.devRef .tc main_v3) = val_main_v3 (F := Ideal) (m ((c : Thread nD τ).loc main_arg1)) :=
  (W2_of_ne m ρ c main_v3 (by decide)).trans (W1_v3 m ρ c)
theorem W2_v25 : W2 m ρ c (Proc.devRef .tc main_v25) = val_main_v26 (F := Ideal) (m ((c : Thread nD τ).loc main_arg1)) :=
  (W2_of_ne m ρ c main_v25 (by decide)).trans (W1_v25 m ρ c)
theorem W2_v27 : W2 m ρ c (Proc.devRef .tc main_v27) = shapeCast S100000x1 (val_main_v40 (F := Ideal) (m ((c : Thread nD τ).loc main_arg1))) shapeCasts_S100000_S100000x1 :=
  (W2_of_ne m ρ c main_v27 (by decide)).trans (W1_v27 m ρ c)
theorem W2_arg3 : W2 m ρ c (Proc.devRef .tc main_arg3) = (m ((c : Thread nD τ).loc main_arg3)) := (W2_of_ne m ρ c main_arg3 (by decide)).trans (W1_arg3 m ρ c)
theorem W2_arg4 : W2 m ρ c (Proc.devRef .tc main_arg4) = (m ((c : Thread nD τ).loc main_arg4)) := (W2_of_ne m ρ c main_arg4 (by decide)).trans (W1_arg4 m ρ c)
theorem W2_arg5 : W2 m ρ c (Proc.devRef .tc main_arg5) = (m ((c : Thread nD τ).loc main_arg5)) := (W2_of_ne m ρ c main_arg5 (by decide)).trans (W1_arg5 m ρ c)

/-! ## Between the first and the second region: the first layer's neighbourhood sum -/

theorem W3_v41 : W3 m ρ c (Proc.devRef .tc main_v41) = val_main_v39 (F := Ideal) (m ((c : Thread nD τ).loc main_arg0)) (m ((c : Thread nD τ).loc main_arg1)) (m ((c : Thread nD τ).loc main_arg2)) := by
  show StableHlo.after hostOps1 (W2 m ρ c) (Proc.devRef .tc main_v41) = _
  after_results_simp
  rw [W2_v28, W2_v1, W2_v3, W2_v25]
  rfl
theorem W3_v42 : W3 m ρ c (Proc.devRef .tc main_v42) = shapeCast S1x128 (m ((c : Thread nD τ).loc main_arg3)) shapeCasts_S128_S1x128 := by
  show StableHlo.after hostOps1 (W2 m ρ c) (Proc.devRef .tc main_v42) = _
  after_results_simp
  rw [W2_arg3]
  rfl
theorem W3_v28 : W3 m ρ c (Proc.devRef .tc main_v28) = val_main_v4 (F := Ideal) (m ((c : Thread nD τ).loc main_arg0)) (m ((c : Thread nD τ).loc main_arg2)) :=
  (show StableHlo.after hostOps1 (W2 m ρ c) (Proc.devRef .tc main_v28) = W2 m ρ c (Proc.devRef .tc main_v28) by
    kept_across hostOps1).trans (W2_v28 m ρ c)
theorem W3_v27 : W3 m ρ c (Proc.devRef .tc main_v27) = shapeCast S100000x1 (val_main_v40 (F := Ideal) (m ((c : Thread nD τ).loc main_arg1))) shapeCasts_S100000_S100000x1 :=
  (show StableHlo.after hostOps1 (W2 m ρ c) (Proc.devRef .tc main_v27) = W2 m ρ c (Proc.devRef .tc main_v27) by
    kept_across hostOps1).trans (W2_v27 m ρ c)
theorem W3_v1 : W3 m ρ c (Proc.devRef .tc main_v1) = val_main_v1 (F := Ideal) (m ((c : Thread nD τ).loc main_arg1)) :=
  (show StableHlo.after hostOps1 (W2 m ρ c) (Proc.devRef .tc main_v1) = W2 m ρ c (Proc.devRef .tc main_v1) by
    kept_across hostOps1).trans (W2_v1 m ρ c)
theorem W3_v3 : W3 m ρ c (Proc.devRef .tc main_v3) = val_main_v3 (F := Ideal) (m ((c : Thread nD τ).loc main_arg1)) :=
  (show StableHlo.after hostOps1 (W2 m ρ c) (Proc.devRef .tc main_v3) = W2 m ρ c (Proc.devRef .tc main_v3) by
    kept_across hostOps1).trans (W2_v3 m ρ c)
theorem W3_v25 : W3 m ρ c (Proc.devRef .tc main_v25) = val_main_v26 (F := Ideal) (m ((c : Thread nD τ).loc main_arg1)) :=
  (show StableHlo.after hostOps1 (W2 m ρ c) (Proc.devRef .tc main_v25) = W2 m ρ c (Proc.devRef .tc main_v25) by
    kept_across hostOps1).trans (W2_v25 m ρ c)
theorem W3_arg4 : W3 m ρ c (Proc.devRef .tc main_arg4) = (m ((c : Thread nD τ).loc main_arg4)) :=
  (show StableHlo.after hostOps1 (W2 m ρ c) (Proc.devRef .tc main_arg4) = W2 m ρ c (Proc.devRef .tc main_arg4) by
    kept_across hostOps1).trans (W2_arg4 m ρ c)
theorem W3_arg5 : W3 m ρ c (Proc.devRef .tc main_arg5) = (m ((c : Thread nD τ).loc main_arg5)) :=
  (show StableHlo.after hostOps1 (W2 m ρ c) (Proc.devRef .tc main_arg5) = W2 m ρ c (Proc.devRef .tc main_arg5) by
    kept_across hostOps1).trans (W2_arg5 m ρ c)

/-! ## The second region: the first layer's output -/

theorem W4_v43 : W4 m ρ c (Proc.devRef .tc main_v43) = val_main_v48 (F := Ideal) (m ((c : Thread nD τ).loc main_arg0)) (m ((c : Thread nD τ).loc main_arg1)) (m ((c : Thread nD τ).loc main_arg2)) (m ((c : Thread nD τ).loc main_arg3)) := by
  refine (W4_arr m ρ c 4).trans ?_
  rw [Region1.final (V3 m ρ) c]
  show positivePart zeroWord (pre (W3 m ρ c (Proc.devRef .tc main_v41)) (W3 m ρ c (Proc.devRef .tc main_v28))
    (W3 m ρ c (Proc.devRef .tc main_v27)) (W3 m ρ c (Proc.devRef .tc main_v42))) = _
  rw [W3_v41, W3_v28, W3_v27, W3_v42]
  rw [RefStages.pre_v47 (m ((c : Thread nD τ).loc main_arg0)) (m ((c : Thread nD τ).loc main_arg1)) (m ((c : Thread nD τ).loc main_arg2)) (m ((c : Thread nD τ).loc main_arg3)) _ _
    (fun r => Cert.LibLayout.shapeCast_a_a1_apply _ _ r 0) (fun q => shapeCast_a_1a_apply _ _ 0 q)]
  exact RefStages.positivePart_v48 _ _ _ _

theorem W4_v1 : W4 m ρ c (Proc.devRef .tc main_v1) = val_main_v1 (F := Ideal) (m ((c : Thread nD τ).loc main_arg1)) :=
  (W4_of_ne m ρ c main_v1 (by decide)).trans (W3_v1 m ρ c)
theorem W4_v3 : W4 m ρ c (Proc.devRef .tc main_v3) = val_main_v3 (F := Ideal) (m ((c : Thread nD τ).loc main_arg1)) :=
  (W4_of_ne m ρ c main_v3 (by decide)).trans (W3_v3 m ρ c)
theorem W4_v25 : W4 m ρ c (Proc.devRef .tc main_v25) = val_main_v26 (F := Ideal) (m ((c : Thread nD τ).loc main_arg1)) :=
  (W4_of_ne m ρ c main_v25 (by decide)).trans (W3_v25 m ρ c)
theorem W4_arg4 : W4 m ρ c (Proc.devRef .tc main_arg4) = (m ((c : Thread nD τ).loc main_arg4)) := (W4_of_ne m ρ c main_arg4 (by decide)).trans (W3_arg4 m ρ c)
theorem W4_arg5 : W4 m ρ c (Proc.devRef .tc main_arg5) = (m ((c : Thread nD τ).loc main_arg5)) := (W4_of_ne m ρ c main_arg5 (by decide)).trans (W3_arg5 m ρ c)
/-- The coefficient column is an operand of the region, which never writes an operand back. -/
theorem W4_v27 : W4 m ρ c (Proc.devRef .tc main_v27) = shapeCast S100000x1 (val_main_v40 (F := Ideal) (m ((c : Thread nD τ).loc main_arg1))) shapeCasts_S100000_S100000x1 :=
  ((W4_arr m ρ c 2).trans (((dat1 (V3 m ρ) c).arrAt_in 2 rfl _).trans (A_eq1 (V3 m ρ) c 2))).trans (W3_v27 m ρ c)

/-! ## The third region: the dense product with the second weights -/

theorem W5_v44 : W5 m ρ c (Proc.devRef .tc main_v44) = val_main_v49 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (W5_arr m ρ c 2).trans ?_
  rw [Region2.final (V4 m ρ) c]
  show dense (W4 m ρ c (Proc.devRef .tc main_v43)) (W4 m ρ c (Proc.devRef .tc main_arg4)) = _
  rw [W4_v43, W4_arg4]
  exact RefStages.dense_v49 _ _ _ _ _

theorem W5_v1 : W5 m ρ c (Proc.devRef .tc main_v1) = val_main_v1 (F := Ideal) (m ((c : Thread nD τ).loc main_arg1)) :=
  (W5_of_ne m ρ c main_v1 (by decide)).trans (W4_v1 m ρ c)
theorem W5_v3 : W5 m ρ c (Proc.devRef .tc main_v3) = val_main_v3 (F := Ideal) (m ((c : Thread nD τ).loc main_arg1)) :=
  (W5_of_ne m ρ c main_v3 (by decide)).trans (W4_v3 m ρ c)
theorem W5_v25 : W5 m ρ c (Proc.devRef .tc main_v25) = val_main_v26 (F := Ideal) (m ((c : Thread nD τ).loc main_arg1)) :=
  (W5_of_ne m ρ c main_v25 (by decide)).trans (W4_v25 m ρ c)
theorem W5_v27 : W5 m ρ c (Proc.devRef .tc main_v27) = shapeCast S100000x1 (val_main_v40 (F := Ideal) (m ((c : Thread nD τ).loc main_arg1))) shapeCasts_S100000_S100000x1 :=
  (W5_of_ne m ρ c main_v27 (by decide)).trans (W4_v27 m ρ c)
theorem W5_arg5 : W5 m ρ c (Proc.devRef .tc main_arg5) = (m ((c : Thread nD τ).loc main_arg5)) := (W5_of_ne m ρ c main_arg5 (by decide)).trans (W4_arg5 m ρ c)

/-! ## Between the third and the fourth region: the second layer's neighbourhood sum -/

theorem W6_v57 : W6 m ρ c (Proc.devRef .tc main_v57) = val_main_v84 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  show StableHlo.after hostOps3 (W5 m ρ c) (Proc.devRef .tc main_v57) = _
  after_results_simp
  rw [W5_v44, W5_v1, W5_v3, W5_v25]
  rfl
theorem W6_v58 : W6 m ρ c (Proc.devRef .tc main_v58) = shapeCast S1x64 (m ((c : Thread nD τ).loc main_arg5)) shapeCasts_S64_S1x64 := by
  show StableHlo.after hostOps3 (W5 m ρ c) (Proc.devRef .tc main_v58) = _
  after_results_simp
  rw [W5_arg5]
  rfl
theorem W6_v44 : W6 m ρ c (Proc.devRef .tc main_v44) = val_main_v49 (F := Ideal) (m ((c : Thread nD τ).loc main_arg0)) (m ((c : Thread nD τ).loc main_arg1)) (m ((c : Thread nD τ).loc main_arg2)) (m ((c : Thread nD τ).loc main_arg3)) (m ((c : Thread nD τ).loc main_arg4)) :=
  (show StableHlo.after hostOps3 (W5 m ρ c) (Proc.devRef .tc main_v44) = W5 m ρ c (Proc.devRef .tc main_v44) by
    kept_across hostOps3).trans (W5_v44 m ρ c)
theorem W6_v27 : W6 m ρ c (Proc.devRef .tc main_v27) = shapeCast S100000x1 (val_main_v40 (F := Ideal) (m ((c : Thread nD τ).loc main_arg1))) shapeCasts_S100000_S100000x1 :=
  (show StableHlo.after hostOps3 (W5 m ρ c) (Proc.devRef .tc main_v27) = W5 m ρ c (Proc.devRef .tc main_v27) by
    kept_across hostOps3).trans (W5_v27 m ρ c)

/-! ## The fourth region: the result -/

/-- The reference computes the nodes' inverse root degrees once per layer, by the same operations of the same edges. -/
theorem v85_eq_v40 : val_main_v85 (F := Ideal) (m ((c : Thread nD τ).loc main_arg1)) = val_main_v40 (F := Ideal) (m ((c : Thread nD τ).loc main_arg1)) := rfl

/-- The result buffer after the run is the reference's last stage of the six arguments. -/
theorem W7_out : W7 m ρ c (Proc.devRef .tc main_v59) = val_main_v93 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (W7_arr m ρ c 4).trans ?_
  rw [Region3.final (V6 m ρ) c]
  show logSoftmax botWord (pre (W6 m ρ c (Proc.devRef .tc main_v57)) (W6 m ρ c (Proc.devRef .tc main_v44))
    (W6 m ρ c (Proc.devRef .tc main_v27)) (W6 m ρ c (Proc.devRef .tc main_v58))) = _
  rw [W6_v57, W6_v44, W6_v27, W6_v58]
  rw [RefStages.pre_v92 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) _ _
    (fun r => (Cert.LibLayout.shapeCast_a_a1_apply _ _ r 0).trans (congrFun (v85_eq_v40 m c).symm _))
    (fun q => shapeCast_a_1a_apply _ _ 0 q)]
  exact RefStages.logSoftmax_v93 _ _ _ _ _ _

end Cert.Gcn.KValue

end
-- ==== Proof.LibTRef.lean ====
/-
  Typed references: writing through one and reading back.

  A typed reference is a buffer together with the fact that the buffer's type is a given one; contents at the given type are
  carried to contents of the buffer, and back, along that fact. For any typed reference the round trip is the identity,
  in both orders: the fact is an equation between two types, and along an equation of a type with itself carrying is the
  identity.
-/
import Idealize.ShloMosaic.Lib.StableHlo

namespace Cert.LibTRef

open Idealize.ShloMosaic Idealize.ShloMosaic.StableHlo

variable {sig : RefSig} {Val : EltTy → Type} {T : BufTy}

/-- Carrying contents along an equation of types and back along the same equation is the identity. -/
theorem cast_cast_symm {α β : Type} (h : α = β) (h' : β = α) (v : α) : cast h' (cast h v) = v := by
  subst h; rfl

/-- Contents written through a typed reference read back through it unchanged. -/
theorem ofBuf_toBuf (x : TRef sig T) (v : T.Contents Val) : x.ofBuf (x.toBuf v) = v :=
  cast_cast_symm _ _ v

/-- A buffer's contents read through a typed reference write back through it unchanged. -/
theorem toBuf_ofBuf (x : TRef sig T) (u : x.ref.ty.Contents Val) : x.toBuf (x.ofBuf u) = u :=
  cast_cast_symm _ _ u

end Cert.LibTRef
-- ==== Proof.RefValue.lean ====
/-
  The reference's run, read back.

  The reference is one straight line of 130 host operations. Every weakly fair execution from a memory with zero counters
  terminates; the result buffer then holds the last operation's value as a function of the six arguments' launch
  contents — the composition of the operations' values, one operation at a time — and the arguments are unchanged.
  Two of the operations' stretches are bodies of outlined functions (the positive part, and the logarithm of the softmax),
  which write through typed references; writing through such a reference and reading back is the identity.
-/
import proofs.«123945_j62423054680283_2_alg».proof.Proof.RefRead
import proofs.«123945_j62423054680283_2_alg».proof.Proof.LibTRef

noncomputable section

namespace Cert.ReferenceIdeal.RefValue

open Cert.ReferenceIdeal Cert.ReferenceIdeal.Gen Idealize.ShloMosaic Idealize.ShloMosaic.TcCoe Idealize.SL.Sem Idealize.ShloMosaic.StableHlo
open Cert.ReferenceIdeal.ValueP Cert.ReferenceIdeal.ReadP

variable {F : FTy → Type} [FloatOps F]

set_option maxRecDepth 65536 in
set_option maxHeartbeats 40000000 in
/-- After the whole line, the result buffer holds the last operation's value of the arguments' launch contents. -/
theorem after_out (m : (ℓ : Loc nD τ sig) → Buf (Elt F) ℓ) (c : Dev nD) :
    after (ops (F := F)) (launchContents m c) (Proc.devRef .tc main_v93)
      = val_main_v93 (F := F) (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5)) := by
  after_results_simp
  simp only [Cert.LibTRef.ofBuf_toBuf, Cert.LibTRef.toBuf_ofBuf]
  rfl

set_option maxRecDepth 65536 in
set_option maxHeartbeats 40000000 in
/-- Every weakly fair execution of the reference terminates with the result at that value and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v93)
          = val_main_v93 (F := F) (m ((c.tc : Thread nD τ).loc main_arg0)) (m ((c.tc : Thread nD τ).loc main_arg1))
              (m ((c.tc : Thread nD τ).loc main_arg2)) (m ((c.tc : Thread nD τ).loc main_arg3))
              (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v93).trans (after_out m c),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl)⟩)
    (run_seq scopedRefs_eq scopedSems_eq defs main (fun _ => ops) main_eq (fun _ => ops_sub) m ρ)

end Cert.ReferenceIdeal.RefValue

end
-- ==== Proof.lean ====
/-
  The certificate of a two-layer graph convolution over 100000 nodes: the pipelined program against its plain reference.

  Both programs compute, from the node features, the edge list, two weight matrices and two biases: the nodes' inverse
  root degrees and the per-edge coefficients; then twice a dense product of the node rows with a weight matrix, the
  neighbourhood sum of the product rows along the edges (a gather, a scaling by the coefficients, a scatter-add), plus
  each node's own product row scaled by its squared inverse root degree, plus the bias; after the first layer the
  positive part, after the second the logarithm of the softmax along each row. The pipelined program does the two dense
  products and the two row-wise stages in four pipelined regions of ten blocks of 10000 rows each, and everything along
  the edges in host operations between them; the reference is one line of host operations.

  Over the extended reals the two results are equal entry by entry, with no condition on the inputs: each region's
  output array is the whole-array function that the reference's corresponding stage computes (a dense product is the
  same sum over the contracted axis; the row-wise stages are computed row by row, and a block holds whole rows), and
  the host operations between the regions are the reference's own. The three frames: the two pipelined programs' are
  the generated ones; the reference's is its run with the result dropped. The idealization rewrote nothing.
-/
import proofs.«123945_j62423054680283_2_alg».proof.Defs
import proofs.«123945_j62423054680283_2_alg».proof.Proof.Gen.Kernel
import proofs.«123945_j62423054680283_2_alg».proof.Proof.Gen.Kernel.Skeleton
import proofs.«123945_j62423054680283_2_alg».proof.Proof.Gen.Kernel.Launch
import proofs.«123945_j62423054680283_2_alg».proof.Proof.Gen.Kernel.Points
import proofs.«123945_j62423054680283_2_alg».proof.Proof.Gen.Kernel.Frame
import proofs.«123945_j62423054680283_2_alg».proof.Proof.Gen.KernelIdeal
import proofs.«123945_j62423054680283_2_alg».proof.Proof.Gen.KernelIdeal.Skeleton
import proofs.«123945_j62423054680283_2_alg».proof.Proof.Gen.KernelIdeal.Launch
import proofs.«123945_j62423054680283_2_alg».proof.Proof.Gen.KernelIdeal.Points
import proofs.«123945_j62423054680283_2_alg».proof.Proof.Gen.KernelIdeal.Frame
import proofs.«123945_j62423054680283_2_alg».proof.Proof.Gen.ReferenceIdeal
import proofs.«123945_j62423054680283_2_alg».proof.Proof.Gen.Pre_finite_inputs
import proofs.«123945_j62423054680283_2_alg».proof.Proof.KValue
import proofs.«123945_j62423054680283_2_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.RefValue.run (F := Ideal) m ρ)

/-- Both programs end with the result at the reference's last stage of the six arguments. -/
theorem algebraic : Cert.algebraic_KernelIdeal_ReferenceIdeal := by
  intro m ρ m' ρ' _ hagree
  refine ⟨fun c => Cert.ReferenceIdeal.ReadP.val_main_v93 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · refine (θ_run Cert.KernelIdeal.defs _ _).mono (fun r h c => ?_) (Cert.KernelIdeal.Whole.run_all (F := Ideal) m ρ)
    exact ⟨(h c _ (Cert.KernelIdeal.Gen.mem_uc Cert.KernelIdeal.main_v59 (by decide))).trans (Cert.Gcn.KValue.W7_out m ρ c),
      (h c _ (Cert.KernelIdeal.Gen.mem_uc Cert.KernelIdeal.main_arg0 (by decide))).trans (Cert.KernelIdeal.Gen.W7_main_arg0 m ρ c),
      (h c _ (Cert.KernelIdeal.Gen.mem_uc Cert.KernelIdeal.main_arg1 (by decide))).trans (Cert.KernelIdeal.Gen.W7_main_arg1 m ρ c),
      (h c _ (Cert.KernelIdeal.Gen.mem_uc Cert.KernelIdeal.main_arg2 (by decide))).trans (Cert.KernelIdeal.Gen.W7_main_arg2 m ρ c),
      (h c _ (Cert.KernelIdeal.Gen.mem_uc Cert.KernelIdeal.main_arg3 (by decide))).trans (Cert.KernelIdeal.Gen.W7_main_arg3 m ρ c),
      (h c _ (Cert.KernelIdeal.Gen.mem_uc Cert.KernelIdeal.main_arg4 (by decide))).trans (Cert.KernelIdeal.Gen.W7_main_arg4 m ρ c),
      (h c _ (Cert.KernelIdeal.Gen.mem_uc Cert.KernelIdeal.main_arg5 (by decide))).trans (Cert.KernelIdeal.Gen.W7_main_arg5 m ρ c)⟩
  · refine (θ_run Cert.ReferenceIdeal.defs _ _).mono (fun _ h c => ⟨(h c).1.trans ?_, (h c).2⟩)
      (Cert.ReferenceIdeal.RefValue.run (F := Ideal) m' ρ')
    rw [(hagree c).1, (hagree c).2.1, (hagree c).2.2.1, (hagree c).2.2.2.1, (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
